-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S640000 32) (main_v33 : IVec S_ 1) : IVec S_ 1 :=
  let main_c_12 : IVec S_ 32 := constantI S_ 32 0#32
  let main_v34 : IVec S640000 32 := broadcastInDim S640000 ![] bcast_S_S640000 main_c_12
  let main_v35 : IVec S640000 1 := cmpi .sge main_arg1 main_v34
  let main_c_13 : IVec S_ 1 := constantI S_ 1 1#1
  let main_v36 : IVec S_ 1 := (fun x v => Host.reduce IntOp.andi x v reducesTo_S640000_S_d0 h_S_) main_v35 main_c_13
  let main_v37 : IVec S_ 1 := andi main_v33 main_v36
  let main_c_14 : IVec S_ 32 := constantI S_ 32 50000#32
  let main_v38 : IVec S640000 32 := broadcastInDim S640000 ![] bcast_S_S640000 main_c_14
  let main_v39 : IVec S640000 1 := cmpi .slt main_arg1 main_v38
  let main_c_15 : IVec S_ 1 := constantI S_ 1 1#1
  let main_v40 : IVec S_ 1 := (fun x v => Host.reduce IntOp.andi x v reducesTo_S640000_S_d0 h_S_) main_v39 main_c_15
  let main_v41 : IVec S_ 1 := andi main_v37 main_v40
  main_v41

def fn_part1 {F : FTy → Type} [FloatOps F] (main_arg1 : IVec S640000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S640000 32) (main_arg2 : IVec S640000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S50176x128 : Shape := ⟨2, ![50176, 128]⟩
abbrev S50176 : Shape := ⟨1, ![50176]⟩
abbrev S640000x1 : Shape := ⟨2, ![640000, 1]⟩
abbrev S1024x128 : Shape := ⟨2, ![1024, 128]⟩
abbrev S1024 : Shape := ⟨1, ![1024]⟩
abbrev S1024x1 : Shape := ⟨2, ![1024, 1]⟩
abbrev S640000x128 : Shape := ⟨2, ![640000, 128]⟩
abbrev S1x128 : Shape := ⟨2, ![1, 128]⟩

abbrev nBuf : Space → Nat
  | .hbm => 78
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S_, .f32⟩
  | .hbm, ⟨11, _⟩ => ⟨S50176x128, .f32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50176, .f32⟩
  | .hbm, ⟨16, _⟩ => ⟨S640000x1, .i32⟩
  | .hbm, ⟨17, _⟩ => ⟨S50176, .f32⟩
  | .hbm, ⟨18, _⟩ => ⟨S_, .f32⟩
  | .hbm, ⟨19, _⟩ => ⟨S50176, .f32⟩
  | .hbm, ⟨20, _⟩ => ⟨S640000x1, .i32⟩
  | .hbm, ⟨21, _⟩ => ⟨S50176, .f32⟩
  | .hbm, ⟨22, _⟩ => ⟨S_, .f32⟩
  | .hbm, ⟨23, _⟩ => ⟨S_, .f32⟩
  | .hbm, ⟨24, _⟩ => ⟨S50176, .f32⟩
  | .hbm, ⟨25, _⟩ => ⟨S50176, .f32⟩
  | .hbm, ⟨26, _⟩ => ⟨S50176, .f32⟩
  | .hbm, ⟨27, _⟩ => ⟨S_, .f32⟩
  | .hbm, ⟨28, _⟩ => ⟨S_, .f32⟩
  | .hbm, ⟨29, _⟩ => ⟨S50176, .f32⟩
  | .hbm, ⟨30, _⟩ => ⟨S50176, .f32⟩
  | .hbm, ⟨31, _⟩ => ⟨S50176, .f32⟩
  | .hbm, ⟨32, _⟩ => ⟨S50176x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S_, .f32⟩
  | .hbm, ⟨43, _⟩ => ⟨S50176x128, .f32⟩
  | .hbm, ⟨44, _⟩ => ⟨S640000x1, .i32⟩
  | .hbm, ⟨45, _⟩ => ⟨S50176x128, .f32⟩
  | .hbm, ⟨46, _⟩ => ⟨S50176x128, .f32⟩
  | .hbm, ⟨47, _⟩ => ⟨S50176x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S50176x128, .f32⟩
  | .hbm, ⟨59, _⟩ => ⟨S640000x1, .i32⟩
  | .hbm, ⟨60, _⟩ => ⟨S50176x128, .f32⟩
  | .hbm, ⟨61, _⟩ => ⟨S50176x128, .f32⟩
  | .hbm, ⟨62, _⟩ => ⟨S50176x128, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x128, .f32⟩
  | .hbm, ⟨72, _⟩ => ⟨S_, .f32⟩
  | .hbm, ⟨73, _⟩ => ⟨S50176x128, .f32⟩
  | .hbm, ⟨74, _⟩ => ⟨S640000x1, .i32⟩
  | .hbm, ⟨75, _⟩ => ⟨S50176x128, .f32⟩
  | .hbm, ⟨76, _⟩ => ⟨S50176x128, .f32⟩
  | .hbm, ⟨77, _⟩ => ⟨S50000x128, .f32⟩
  | .local _ .vmem, ⟨0, _⟩ => ⟨S1024x128, .f32⟩
  | .local _ .vmem, ⟨1, _⟩ => ⟨S1024x128, .f32⟩
  | .local _ .vmem, ⟨2, _⟩ => ⟨S1024, .f32⟩
  | .local _ .vmem, ⟨3, _⟩ => ⟨S1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024, .f32⟩
  | .local _ .vmem, ⟨9, _⟩ => ⟨S1024, .f32⟩
  | .local _ .vmem, ⟨10, _⟩ => ⟨S128x128, .f32⟩
  | .local _ .vmem, ⟨11, _⟩ => ⟨S128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024, .f32⟩
  | .local _ .vmem, ⟨17, _⟩ => ⟨S1024, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024, .f32⟩
  | .local _ .vmem, ⟨23, _⟩ => ⟨S1024, .f32⟩
  | .local _ .vmem, ⟨24, _⟩ => ⟨S128x128, .f32⟩
  | .local _ .vmem, ⟨25, _⟩ => ⟨S128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024, .f32⟩
  | .local _ .vmem, ⟨31, _⟩ => ⟨S1024, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024, .f32⟩
  | .local _ .vmem, ⟨37, _⟩ => ⟨S1024, .f32⟩
  | .local _ .vmem, ⟨38, _⟩ => ⟨S128x128, .f32⟩
  | .local _ .vmem, ⟨39, _⟩ => ⟨S128, .f32⟩
  | .local _ .vmem, ⟨40, _⟩ => ⟨S1024x128, .f32⟩
  | .local _ .vmem, ⟨41, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_4 : Ref sig .tc := ⟨.hbm, 33, rfl⟩
abbrev main_v13 : Ref sig .tc := ⟨.hbm, 34, rfl⟩
abbrev main_v14 : Ref sig .tc := ⟨.hbm, 35, rfl⟩
abbrev main_c_5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_c_11 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![49], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![49], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  ![arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1024x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  pads_S50000x128_S50176x128_01760_000 : S50000x128.Pads (![0, 0] : Fin 2 → Nat) ![176, 0] ![0, 0] S50176x128
  h_S_ : 0 < S_.numel
  bcast_S_S640000 : S_.BroadcastsInDim S640000 (![] : Fin 0 → Fin S640000.rank)
  bcast_S_S50176 : S_.BroadcastsInDim S50176 (![] : Fin 0 → Fin S50176.rank)
  bcast_S640000_S640000x1_0 : S640000.BroadcastsInDim S640000x1 (![0] : Fin 1 → Fin S640000x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x128 : S1024x1.Broadcasts S1024x128
  bcast_S_S50176x128 : S_.BroadcastsInDim S50176x128 (![] : Fin 0 → Fin S50176x128.rank)
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  slices_S50176x128_S50000x128_0_0 : S50176x128.Slices ![0, 0] S50000x128
  scatter_S50176_S640000x1_S640000_n_0_0_1_wf : ScatterDims.WF S50176 S640000x1 S640000 [] [0] [0] 1
  gather_S50176x128_S640000x1_S640000x128_1_0_n_n_0_1_1128_wf : GatherDims.WF S50176x128 S640000x1 S640000x128 [1] [0] [] [0] [] 1 ![1, 128]
  scatter_S50176x128_S640000x1_S640000x128_1_0_0_1_wf : ScatterDims.WF S50176x128 S640000x1 S640000x128 [1] [0] [0] 1
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S50176.size a
  hwx0_1 : ∀ i : grid0.Coords, EltTy.bits .f32 = 32 ∨ (Rect.block (s := S50176) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .f32 = 32 ∨ (Rect.block (s := S50176x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S50176x128.size a
  hwx1_0 : ∀ i : grid1.Coords, EltTy.bits .f32 = 32 ∨ (Rect.block (s := S50176x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S50176.size a
  hwx1_1 : ∀ i : grid1.Coords, EltTy.bits .f32 = 32 ∨ (Rect.block (s := S50176) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S50176x128.size a
  hwx1_4 : ∀ i : grid1.Coords, EltTy.bits .f32 = 32 ∨ (Rect.block (s := S50176x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S50176x128.size a
  hwx2_0 : ∀ i : grid2.Coords, EltTy.bits .f32 = 32 ∨ (Rect.block (s := S50176x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S50176.size a
  hwx2_1 : ∀ i : grid2.Coords, EltTy.bits .f32 = 32 ∨ (Rect.block (s := S50176) S1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S50176x128.size a
  hwx2_2 : ∀ i : grid2.Coords, EltTy.bits .f32 = 32 ∨ (Rect.block (s := S50176x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S50176x128.size a
  hwx3_0 : ∀ i : grid3.Coords, EltTy.bits .f32 = 32 ∨ (Rect.block (s := S50176x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S50176.size a
  hwx3_1 : ∀ i : grid3.Coords, EltTy.bits .f32 = 32 ∨ (Rect.block (s := S50176) S1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S50176x128.size a
  hwx3_4 : ∀ i : grid3.Coords, EltTy.bits .f32 = 32 ∨ (Rect.block (s := S50176x128) S1024x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S50176x128.size a
  hwx4_0 : ∀ i : grid4.Coords, EltTy.bits .f32 = 32 ∨ (Rect.block (s := S50176x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024.size a ≤ S50176.size a
  hwx4_1 : ∀ i : grid4.Coords, EltTy.bits .f32 = 32 ∨ (Rect.block (s := S50176) S1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S50176x128.size a
  hwx4_2 : ∀ i : grid4.Coords, EltTy.bits .f32 = 32 ∨ (Rect.block (s := S50176x128) S1024x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S50176x128.size a
  hwx5_0 : ∀ i : grid5.Coords, EltTy.bits .f32 = 32 ∨ (Rect.block (s := S50176x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024.size a ≤ S50176.size a
  hwx5_1 : ∀ i : grid5.Coords, EltTy.bits .f32 = 32 ∨ (Rect.block (s := S50176) S1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x128.size a ≤ S50176x128.size a
  hwx5_4 : ∀ i : grid5.Coords, EltTy.bits .f32 = 32 ∨ (Rect.block (s := S50176x128) S1024x128.size (cc5_transform_4 i) (hinb5_4 i)).WholeWords (EltTy.packing .f32)

variable [Facts₀]

def scatter_S50176_S640000x1_S640000_n_0_0_1 : ScatterDims S50176 S640000x1 S640000 where
  updateWindowDims := []
  insertedWindowDims := [0]
  scatterDimsToOperandDims := [0]
  indexVectorDim := 1
  wf := scatter_S50176_S640000x1_S640000_n_0_0_1_wf
def gather_S50176x128_S640000x1_S640000x128_1_0_n_n_0_1_1128 : GatherDims S50176x128 S640000x1 S640000x128 where
  offsetDims := [1]
  collapsedSliceDims := [0]
  operandBatchingDims := []
  startIndicesBatchingDims := []
  startIndexMap := [0]
  indexVectorDim := 1
  sliceSizes := ![1, 128]
  wf := gather_S50176x128_S640000x1_S640000x128_1_0_n_n_0_1_1128_wf
def scatter_S50176x128_S640000x1_S640000x128_1_0_0_1 : ScatterDims S50176x128 S640000x1 S640000x128 where
  updateWindowDims := [1]
  insertedWindowDims := [0]
  scatterDimsToOperandDims := [0]
  indexVectorDim := 1
  wf := scatter_S50176x128_S640000x1_S640000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S1024x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S_, .f32⟩
  | 10 => ⟨S640000, .f32⟩
  | 11 => ⟨S_, .f32⟩
  | 12 => ⟨S50000, .f32⟩
  | 13 => ⟨S640000x1, .i32⟩
  | 14 => ⟨S50000, .f32⟩
  | 15 => ⟨S_, .f32⟩
  | 16 => ⟨S50000, .f32⟩
  | 17 => ⟨S640000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x128, .f32⟩
  | 41 => ⟨S_, .f32⟩
  | 42 => ⟨S50000x128, .f32⟩
  | 43 => ⟨S640000x1, .i32⟩
  | 44 => ⟨S50000x128, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S640000, .f32⟩
  | 57 => ⟨S_, .f32⟩
  | 58 => ⟨S50000, .f32⟩
  | 59 => ⟨S640000x1, .i32⟩
  | 60 => ⟨S50000, .f32⟩
  | 61 => ⟨S_, .f32⟩
  | 62 => ⟨S50000, .f32⟩
  | 63 => ⟨S640000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S50000, .f32⟩
  | 70 => ⟨S_, .f32⟩
  | 71 => ⟨S_, .f32⟩
  | 72 => ⟨S50000, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x128, .f32⟩
  | 87 => ⟨S_, .f32⟩
  | 88 => ⟨S50000x128, .f32⟩
  | 89 => ⟨S640000x1, .i32⟩
  | 90 => ⟨S50000x128, .f32⟩
  | 91 => ⟨S50000x1, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .f32⟩
  | 102 => ⟨S640000, .f32⟩
  | 103 => ⟨S_, .f32⟩
  | 104 => ⟨S50000, .f32⟩
  | 105 => ⟨S640000x1, .i32⟩
  | 106 => ⟨S50000, .f32⟩
  | 107 => ⟨S_, .f32⟩
  | 108 => ⟨S50000, .f32⟩
  | 109 => ⟨S640000x1, .i32⟩
  | 110 => ⟨S50000, .f32⟩
  | 111 => ⟨S_, .f32⟩
  | 112 => ⟨S_, .f32⟩
  | 113 => ⟨S50000, .f32⟩
  | 114 => ⟨S50000, .f32⟩
  | 115 => ⟨S50000, .f32⟩
  | 116 => ⟨S_, .f32⟩
  | 117 => ⟨S_, .f32⟩
  | 118 => ⟨S50000, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S_, .i32⟩
  | 125 => ⟨S640000, .i32⟩
  | 126 => ⟨S640000, .i1⟩
  | 127 => ⟨S_, .i32⟩
  | _ => ⟨S50000x128, .f32⟩

abbrev hbmTy0_1 (i : Nat) : BufTy := match i % 128 with
  | 0 => ⟨S640000, .i32⟩
  | 1 => ⟨S640000, .i32⟩
  | 2 => ⟨S640000, .i32⟩
  | 3 => ⟨S640000x1, .i32⟩
  | 4 => ⟨S640000x128, .f32⟩
  | 5 => ⟨S_, .f32⟩
  | 6 => ⟨S50000x128, .f32⟩
  | 7 => ⟨S640000x1, .i32⟩
  | 8 => ⟨S50000x128, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_call3_v0 : Ref sig .tc := ⟨.hbm, 66, rfl⟩
abbrev main_call3_v1 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_call4_v0 : Ref sig .tc := ⟨.hbm, 71, rfl⟩
abbrev main_call4_v1 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call5_cst : Ref sig .tc := ⟨.hbm, 98, rfl⟩
abbrev main_call5_v0 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_16 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_17 : Ref sig .tc := ⟨.hbm, 111, rfl⟩
abbrev main_call6_v0 : Ref sig .tc := ⟨.hbm, 112, rfl⟩
abbrev main_call6_v1 : Ref sig .tc := ⟨.hbm, 113, rfl⟩
abbrev main_v71 : Ref sig .tc := ⟨.hbm, 114, rfl⟩
abbrev main_v72 : Ref sig .tc := ⟨.hbm, 115, rfl⟩
abbrev main_cst_18 : Ref sig .tc := ⟨.hbm, 116, rfl⟩
abbrev main_call7_v0 : Ref sig .tc := ⟨.hbm, 117, rfl⟩
abbrev main_call7_v1 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_19 : Ref sig .tc := ⟨.hbm, 124, rfl⟩
abbrev main_v78 : Ref sig .tc := ⟨.hbm, 125, rfl⟩
abbrev main_v79 : Ref sig .tc := ⟨.hbm, 126, rfl⟩
abbrev main_c_20 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_21 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One graph-convolution layer, read at an entry, and why padding the node axis does not change it.

  A layer takes node features `h : [n, 128]`, scales row `s` by `io s`, sums over the edges `e` whose destination is
  node `i` the scaled row of the edge's source node, scales the sum by `ii i`, multiplies by a weight matrix and adds
  a bias. Entry `(i, j)` of the result therefore depends on `h`, `io` only at source nodes of edges into `i`, and on
  `ii` only at `i`. If every source node lies among the first `n` nodes of a longer node axis `n' ≥ n`, the layer
  computed over `n'` nodes agrees on the first `n` rows with the layer computed over `n` nodes, whatever the extra
  rows hold: no edge reads them. The accumulation is an exact sum of extended reals, so its order is immaterial and no
  finiteness is needed.
-/
import Idealize.ShloMosaic.PureOps.Ideal
import Idealize.ShloMosaic.Lib.ValueIdx

noncomputable section

namespace Cert.GCN

open Idealize.ShloMosaic

/-- The zero word and the one word of the 32-bit float format, kept as words: both programs carry the same ones, so
    their values are never needed. -/
abbrev zeroW : EReal := Ideal.ofBits .f32 0x00000000#32
abbrev oneW : EReal := Ideal.ofBits .f32 0x3F800000#32

/-- The number of edges. -/
abbrev E : Nat := 640000

/-- Entry `(i, j)` of one layer before its activation: `z` is the accumulator's initial value, `dst e` the
    destination word of edge `e` read as a signed integer, `s e` the node whose row edge `e` reads. -/
def layerE {n : Nat} (z : EReal) (dst : Fin E → Int) (s : Fin E → Fin n) (h : Fin n → Fin 128 → EReal)
    (io ii : Fin n → EReal) (W : Fin 128 → Fin 128 → EReal) (b : Fin 128 → EReal) (i : Fin n) (j : Fin 128) : EReal :=
  (∑ k : Fin 128, ((z + ∑ e : Fin E, if dst e = (i.val : Int) then h (s e) k * io (s e) else 0) * ii i) * W k j) + b j

/-- PADDING THE NODE AXIS: over `n' ≥ n` nodes, with the same source nodes and inputs that agree on the first `n`
    rows, the layer agrees on the first `n` rows. -/
theorem layerE_agree {n n' : Nat} (z : EReal) (dst : Fin E → Int) (s : Fin E → Fin n) (s' : Fin E → Fin n')
    (hs : ∀ e, (s' e).val = (s e).val)
    (h : Fin n → Fin 128 → EReal) (h' : Fin n' → Fin 128 → EReal)
    (hh : ∀ (r : Fin n) (r' : Fin n'), r'.val = r.val → ∀ k, h' r' k = h r k)
    (io ii : Fin n → EReal) (io' ii' : Fin n' → EReal)
    (hio : ∀ (r : Fin n) (r' : Fin n'), r'.val = r.val → io' r' = io r)
    (hii : ∀ (r : Fin n) (r' : Fin n'), r'.val = r.val → ii' r' = ii r)
    (W : Fin 128 → Fin 128 → EReal) (b : Fin 128 → EReal) (i : Fin n) (i' : Fin n') (hi : i'.val = i.val) (j : Fin 128) :
    layerE z dst s' h' io' ii' W b i' j = layerE z dst s h io ii W b i j := by
  unfold layerE
  rw [hii i i' hi, hi]
  refine congrArg (· + b j) (Finset.sum_congr rfl fun k _ => ?_)
  refine congrArg (fun t => (z + t) * ii i * W k j) (Finset.sum_congr rfl fun e _ => ?_)
  rw [hh (s e) (s' e) (hs e) k, hio (s e) (s' e) (hs e)]

/-- Entry `i` of a node degree: the number of edges whose word, read signed, is `i`, counted from `z` in steps
    of `one`. It does not mention the length of the node axis. -/
def degE (z one : EReal) (idx : Fin E → Int) (i : Nat) : EReal :=
  z + ∑ e : Fin E, if idx e = (i : Int) then one else 0

/-- Entry `i` of a normalisation vector: the reciprocal square root of the degree, the degree first raised to at
    least `one`. -/
def invE (z one : EReal) (idx : Fin E → Int) (i : Nat) : EReal :=
  Ideal.rsqrt (max one (degE z one idx i))

/-- Entry `(i, j)` of the three-layer network over `n` nodes: both normalisation vectors come from the edge words
    alone (`src` for the scaling before the aggregation, `dst` for the one after), the first two layers end in
    `max · z`, the last does not. -/
def net {n : Nat} (z one : EReal) (src dst : Fin E → Int) (s : Fin E → Fin n) (h0 : Fin n → Fin 128 → EReal)
    (W1 : Fin 128 → Fin 128 → EReal) (b1 : Fin 128 → EReal) (W2 : Fin 128 → Fin 128 → EReal) (b2 : Fin 128 → EReal)
    (W3 : Fin 128 → Fin 128 → EReal) (b3 : Fin 128 → EReal) : Fin n → Fin 128 → EReal :=
  layerE z dst s
    (fun r k => max (layerE z dst s
      (fun r k => max (layerE z dst s h0 (fun r => invE z one src r.val) (fun r => invE z one dst r.val) W1 b1 r k) z)
      (fun r => invE z one src r.val) (fun r => invE z one dst r.val) W2 b2 r k) z)
    (fun r => invE z one src r.val) (fun r => invE z one dst r.val) W3 b3

/-- PADDING THE NODE AXIS, for the whole network: with the same source nodes and first-layer inputs that agree on the
    first `n` rows, the network over `n'` nodes agrees with the network over `n` nodes on the first `n` rows. The
    normalisation entries do not mention the axis length, so they agree outright; each layer then preserves the
    agreement (`layerE_agree`). -/
theorem net_agree {n n' : Nat} (z one : EReal) (src dst : Fin E → Int) (s : Fin E → Fin n) (s' : Fin E → Fin n')
    (hs : ∀ e, (s' e).val = (s e).val)
    (h0 : Fin n → Fin 128 → EReal) (h0' : Fin n' → Fin 128 → EReal)
    (hh : ∀ (r : Fin n) (r' : Fin n'), r'.val = r.val → ∀ k, h0' r' k = h0 r k)
    (W1 : Fin 128 → Fin 128 → EReal) (b1 : Fin 128 → EReal) (W2 : Fin 128 → Fin 128 → EReal) (b2 : Fin 128 → EReal)
    (W3 : Fin 128 → Fin 128 → EReal) (b3 : Fin 128 → EReal)
    (i : Fin n) (i' : Fin n') (hi : i'.val = i.val) (j : Fin 128) :
    net z one src dst s' h0' W1 b1 W2 b2 W3 b3 i' j = net z one src dst s h0 W1 b1 W2 b2 W3 b3 i j := by
  have hinv : ∀ (idx : Fin E → Int) (r : Fin n) (r' : Fin n'), r'.val = r.val →
      invE z one idx r'.val = invE z one idx r.val := fun idx r r' h => by rw [h]
  unfold net
  refine layerE_agree z dst s s' hs _ _ (fun r r' hr k => ?_) _ _ _ _ (hinv src) (hinv dst) W3 b3 i i' hi j
  refine congrArg (max · z) ?_
  refine layerE_agree z dst s s' hs _ _ (fun r r' hr k => ?_) _ _ _ _ (hinv src) (hinv dst) W2 b2 r r' hr k
  refine congrArg (max · z) ?_
  exact layerE_agree z dst s s' hs _ _ hh _ _ _ _ (hinv src) (hinv dst) W1 b1 r r' hr k

end Cert.GCN

end
-- ==== Proof.KRun.lean ====
/-
  The padded program's run with its result named.

  The program is seventeen segments: stretches of host operations and six kernel regions. Every weakly fair execution
  terminates without a fault in a state where every unscoped buffer holds the contents the fold through the segments
  gives it at the last boundary. Read at the result's buffer, that is the result; read at an argument's buffer, it
  walks back to the launch contents, because no segment writes an argument.
-/
import proofs.«107483_j63513976373416_1_alg».proof.Proof.Gen.KernelIdeal.Frame

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result's buffer at the last boundary's
    contents and the argument arrays as launched. -/
theorem run : θ_run defs (onTc (τ := τ) (main (F := F))) ⟨m, fun _ => 0, ρ⟩ (fun r => ∀ c : Dev nD,
      r.2.mem ((c.tc : Thread nD τ).loc main_v48) = W17 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v48 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.KV

end
-- ==== Proof.KDefs.lean ====
/-
  What each of the two kinds of kernel region leaves in its output array, as one function of the arrays it reads,
  over the padded node axis of 50176 rows.

  A scaling region multiplies row `r` of a `[50176, 128]` array by entry `r` of a vector. A layer region scales the
  same way, multiplies the scaled rows by a `[128, 128]` matrix — entry `(r, q)` is the sum over `k` of the scaled
  entry `(r, k)` times the matrix entry `(k, q)` —, adds entry `q` of a bias vector, and in the first two layers takes the
  maximum with the zero word.
-/
import proofs.«107483_j63513976373416_1_alg».proof.KernelIdeal
import proofs.«107483_j63513976373416_1_alg».proof.Proof.Spec
import Idealize.ShloMosaic.PureOps.Ideal
import Idealize.ShloMosaic.Lib.ValueIdx

noncomputable section

namespace Cert.KernelIdeal.KV

open Idealize.ShloMosaic Idealize.ShloMosaic.ValueIdx Cert.KernelIdeal Cert.GCN

/-- Rows scaled: entry `(r, q)` is `x (r, q) · v r`. -/
def scaleG (x : FVec Ideal S50176x128 .f32) (v : FVec Ideal S50176 .f32) : FVec Ideal S50176x128 .f32 :=
  fun i => x i * v (ix1 ⟨(i 0).val, (i 0).isLt⟩)

/-- Rows scaled, projected and shifted: entry `(r, q)` is `(∑ k, (x (r, k) · v r) · W (k, q)) + b q`. -/
def layerG (x : FVec Ideal S50176x128 .f32) (v : FVec Ideal S50176 .f32) (W : FVec Ideal S128x128 .f32)
    (b : FVec Ideal S128 .f32) : FVec Ideal S50176x128 .f32 :=
  fun i => (∑ k : Fin 128, (x (ix2 ⟨(i 0).val, (i 0).isLt⟩ k) * v (ix1 ⟨(i 0).val, (i 0).isLt⟩))
      * W (ix2 k ⟨(i 1).val, (i 1).isLt⟩)) + b (ix1 ⟨(i 1).val, (i 1).isLt⟩)

/-- The same followed by the maximum with the zero word. -/
def layerReluG (x : FVec Ideal S50176x128 .f32) (v : FVec Ideal S50176 .f32) (W : FVec Ideal S128x128 .f32)
    (b : FVec Ideal S128 .f32) : FVec Ideal S50176x128 .f32 :=
  fun i => max (layerG x v W b i) zeroW

end Cert.KernelIdeal.KV

end
-- ==== Proof.KHostDefs.lean ====
/-
  The host-side pieces of the padded program, as functions of the arrays they read.

  The node features are padded with 176 rows at the high end of the node axis. A normalisation vector is a function of one
  column of edge words alone: count, for every node of the padded axis, the edges whose word is that node (a scatter-add
  of ones into zeros), raise the count to at least one, take the reciprocal square root. An aggregation takes a
  `[50176, 128]` table and the two columns of edge words: every edge gathers the table's row named by its source word
  (a negative word first moved up by 50176, then the word clamped into the table) and the gathered rows are
  scatter-added into zeros at the rows named by the destination words.
-/
import proofs.«107483_j63513976373416_1_alg».proof.Proof.Gen.KernelIdeal
import Idealize.ShloMosaic.PureOps.Ideal

noncomputable section

namespace Cert.KernelIdeal.KV

open Idealize.ShloMosaic Idealize.ShloMosaic.TcCoe
open Cert.KernelIdeal Cert.KernelIdeal.Gen

/-- The node features padded at the high end of the node axis. -/
def padOf (x : FVec Ideal S50000x128 .f32) : FVec Ideal S50176x128 .f32 :=
  pad S50176x128 ![0, 0] ![176, 0] ![0, 0] x (sitofp (F := Ideal) .f32 (constantI S_ 32 0#32))
    pads_S50000x128_S50176x128_01760_000 h_S_

/-- The normalisation vector of a column of edge words, over the padded node axis. -/
def invOf (x : IVec S640000 32) : FVec Ideal S50176 .f32 :=
  Host.rsqrt (F := Ideal) (maximumf (F := Ideal)
    (broadcastInDim S50176 ![] bcast_S_S50176 (constant (F := Ideal) S_ .f32 0x3F800000#32))
    (Host.scatterAdd (F := Ideal) scatter_S50176_S640000x1_S640000_n_0_0_1
      (broadcastInDim S50176 ![] bcast_S_S50176 (constant (F := Ideal) S_ .f32 0x00000000#32))
      (broadcastInDim S640000x1 ![0] bcast_S640000_S640000x1_0 x)
      (broadcastInDim S640000 ![] bcast_S_S640000 (constant (F := Ideal) S_ .f32 0x3F800000#32))))

/-- One aggregation over the padded node axis. -/
def aggOf (x : FVec Ideal S50176x128 .f32) (src dst : IVec S640000 32) : FVec Ideal S50176x128 .f32 :=
  Host.scatterAdd (F := Ideal) scatter_S50176x128_S640000x1_S640000x128_1_0_0_1
    (broadcastInDim S50176x128 ![] bcast_S_S50176x128 (constant (F := Ideal) S_ .f32 0x00000000#32))
    (broadcastInDim S640000x1 ![0] bcast_S640000_S640000x1_0 dst)
    (Host.gather gather_S50176x128_S640000x1_S640000x128_1_0_n_n_0_1_1128 x
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 50176#32))) src)))

end Cert.KernelIdeal.KV

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.LibIdealEntries.lean ====
/-
  The rank-one accumulating float scatter at the ideal instance, read at an entry.

  `zeros(N).at[idx].add(v)` for a float vector `v : [B]` and a column `[B, 1]` of scatter indices is printed as the
  float scatter-add. At the ideal instance its value at entry `i` is the operand's entry plus the exact sum of the
  updates landing on `i`; update `j` lands at `idx j`, read as a signed integer and not clamped, when that is an index
  of the operand, and is dropped otherwise. So entry `i` is the operand's entry plus the sum of `v j` over the `j` whose
  index word, read signed, is `i` — with `v` all ones, the segment count.
-/
import proofs.«107483_j63513976373416_1_alg».proof.Proof.LibHostScatterAdd
import Idealize.ShloMosaic.PureOps.Ideal

noncomputable section

open Idealize.ShloMosaic Idealize.ShloMosaic.ValueIdx

namespace Cert.HostInt

/-- THE RANK-ONE FLOAT SCATTER-ADD AT AN ENTRY, at the ideal instance: the operand's entry plus the updates whose start
    index, read signed, is `i`. -/
theorem scatterAdd_col_apply {N B w : Nat} {φ : FTy}
    (wf : ScatterDims.WF ⟨1, ![N]⟩ ⟨2, ![B, 1]⟩ ⟨1, ![B]⟩ [] [0] [0] 1)
    (x : FVec Ideal ⟨1, ![N]⟩ φ) (idx : IVec ⟨2, ![B, 1]⟩ w) (upd : FVec Ideal ⟨1, ![B]⟩ φ) (i : Fin N) :
    Host.scatterAdd (F := Ideal) (colScatterDims N B wf) x idx upd (ix1 i)
      = x (ix1 i) + ∑ j : Fin B, if (idx (colEntry j)).toInt = (i.val : Int) then upd (ix1 j) else 0 := by
  show Ideal.hostScatterAdd (colScatterDims N B wf) x idx upd (ix1 i) = _
  unfold Ideal.hostScatterAdd
  refine congrArg (x (ix1 i) + ·) ?_
  rw [Finset.sum_filter]
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val :=
        congrArg (fun y : (⟨1, ![N]⟩ : Shape).Idx => (y 0).val) (Option.some.inj hh)
      omega
  · rw [dif_neg h, if_neg (by simp), if_neg (by omega)]

end Cert.HostInt

end
-- ==== Proof.KHostEntries.lean ====
/-
  The host-side pieces of the padded program, read at an entry.

  Padding appends rows at the high end of the node axis only, so below row 50000 the padded table is the table; slicing
  the first 50000 rows back out reads the same rows. A normalisation vector counts, for node `r`, the edges whose word
  read signed is `r` — ones scatter-added into zero words through the column of words — raises the count to at least the
  one word and takes the reciprocal square root. Every constant in it is one word repeated at every entry, and stays a
  word here: nothing is evaluated.
-/
import proofs.«107483_j63513976373416_1_alg».proof.Proof.KHostDefs
import proofs.«107483_j63513976373416_1_alg».proof.Proof.Spec
import proofs.«107483_j63513976373416_1_alg».proof.Proof.LibIdealEntries
import Idealize.ShloMosaic.Lib.Pipeline.Value
import Idealize.ShloMosaic.Lib.KernelVsHost
import Idealize.ShloMosaic.Lib.ValueIdx

set_option maxRecDepth 16384

noncomputable section

namespace Cert.KernelIdeal.KV

open Idealize.ShloMosaic Idealize.ShloMosaic.TcCoe Idealize.ShloMosaic.ValueIdx
open Cert.KernelIdeal Cert.KernelIdeal.Gen Cert.GCN Cert.HostInt

/-! ## One word repeated at every entry; a vector viewed as a column -/

/-- An array of the scalar shape repeated over any shape reads, everywhere, its one entry. -/
theorem bcast_scalar_apply {α : Type} {t : Shape} (h : S_.BroadcastsInDim t (![] : Fin 0 → Fin t.rank)) (c : S_.Idx → α)
    (j : t.Idx) : broadcastInDim t ![] h c j = c ix0 :=
  broadcastInDim_apply _ h c j ix0 (fun a => a.elim0)

/-- The column `[640000, 1]` of a vector of edge words reads, at `(e, 0)`, the vector at `e`. -/
theorem col_apply {α : Type} (x : S640000.Idx → α) (e : Fin 640000) :
    broadcastInDim S640000x1 ![0] bcast_S640000_S640000x1_0 x (ix2 e (⟨0, Nat.one_pos⟩ : Fin 1)) = x (ix1 e) :=
  broadcastInDim_apply _ bcast_S640000_S640000x1_0 x _ (ix1 e) (fun a => match a with
    | ⟨0, _⟩ => by show e.val = if (640000 : Nat) = 1 then 0 else e.val; rw [if_neg (by decide)])

/-! ## Padding and slicing the node axis -/

/-- Below row 50000 the padded features are the features. -/
theorem padOf_entry (x : FVec Ideal S50000x128 .f32) (i : Fin 50000) (k : Fin 128) :
    padOf x (ix2 (⟨i.val, Nat.lt_of_lt_of_le i.isLt (by decide)⟩ : Fin 50176) k) = x (ix2 i k) := by
  unfold padOf
  exact pad_apply_of_inside ![0, 0] ![176, 0] ![0, 0] x _ pads_S50000x128_S50176x128_01760_000 h_S_ _ (ix2 i k)
    (fun a => match a with
      | ⟨0, _⟩ => by show i.val = 0 + i.val * (0 + 1); omega
      | ⟨1, _⟩ => by show k.val = 0 + k.val * (0 + 1); omega)

/-- The first 50000 rows. -/
theorem slice_entry (X : FVec Ideal S50176x128 .f32) (i : Fin 50000) (j : Fin 128) :
    extractStridedSlice S50000x128 ![0, 0] X slices_S50176x128_S50000x128_0_0 (ix2 i j)
      = X (ix2 (⟨i.val, Nat.lt_of_lt_of_le i.isLt (by decide)⟩ : Fin 50176) j) :=
  extractStridedSlice_apply ![0, 0] X slices_S50176x128_S50000x128_0_0 (ix2 i j) _
    (fun a => match a with
      | ⟨0, _⟩ => by show i.val = 0 + i.val; omega
      | ⟨1, _⟩ => by show j.val = 0 + j.val; omega)

/-! ## A normalisation vector -/

/-- THE DEGREE at node `r`: ones added into zero words through the column of words count the edges whose word, read
    signed, is `r`. The printed dimension numbers are the rank-one column scatter's. -/
theorem deg_entry (x : IVec S640000 32) (r : Fin 50176) :
    Host.scatterAdd (F := Ideal) scatter_S50176_S640000x1_S640000_n_0_0_1
      (broadcastInDim S50176 ![] bcast_S_S50176 (constant (F := Ideal) S_ .f32 0x00000000#32))
      (broadcastInDim S640000x1 ![0] bcast_S640000_S640000x1_0 x)
      (broadcastInDim S640000 ![] bcast_S_S640000 (constant (F := Ideal) S_ .f32 0x3F800000#32)) (ix1 r)
      = degE zeroW oneW (fun e => BitVec.toInt (x (ix1 e))) r.val := by
  have ed : scatter_S50176_S640000x1_S640000_n_0_0_1
      = colScatterDims 50176 640000 scatter_S50176_S640000x1_S640000_n_0_0_1_wf := rfl
  rw [ed]
  refine (scatterAdd_col_apply scatter_S50176_S640000x1_S640000_n_0_0_1_wf _ _ _ r).trans ?_
  unfold degE
  refine congrArg₂ (· + ·) (bcast_scalar_apply bcast_S_S50176 _ (ix1 r)) (Finset.sum_congr rfl fun e _ => ?_)
  rw [col_apply x e, bcast_scalar_apply bcast_S_S640000 _ (ix1 e)]
  rfl

/-- The host's reciprocal square root acts entry by entry, and on extended reals it is `Ideal.rsqrt`. -/
theorem hostRsqrt_apply {s : Shape} {φ : FTy} (f : FVec Ideal s φ) (i : s.Idx) :
    Host.rsqrt (F := Ideal) f i = Ideal.rsqrt (f i) := rfl

/-- Entry `r` of a normalisation vector. -/
theorem invOf_entry (x : IVec S640000 32) (r : Fin 50176) :
    invOf x (ix1 r) = invE zeroW oneW (fun e => BitVec.toInt (x (ix1 e))) r.val := by
  unfold invOf invE
  refine (hostRsqrt_apply _ (ix1 r)).trans (congrArg Ideal.rsqrt ?_)
  refine (maximumf_apply _ _ (ix1 r)).trans ?_
  exact congrArg₂ max (bcast_scalar_apply bcast_S_S50176 _ (ix1 r)) (deg_entry x r)

end Cert.KernelIdeal.KV

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibGatherScatter.lean ====
/-
  Rows gathered through one column of words and scatter-added through another, read at an entry.

  Update row `e` is row `s e` of the table, where `s e` is the gather's word for `e` read signed and clamped into the
  table; it lands on the row named by the scatter's word for `e`, read signed, or nowhere. So entry `(r, k)` of the result
  is the operand's entry plus the sum, over the edges `e` whose scatter word is `r`, of the table's entry `(s e, k)`.
-/
import proofs.«107483_j63513976373416_1_alg».proof.Proof.LibHostGather
import proofs.«107483_j63513976373416_1_alg».proof.Proof.LibHostSegmentSum

noncomputable section

open Idealize.ShloMosaic Idealize.ShloMosaic.ValueIdx

namespace Cert.HostInt

/-- THE AGGREGATION AT AN ENTRY, over any number `B` of rows. -/
theorem scatterAdd_gather_rows_apply {B F N w : Nat} {φ : FTy} (hB : 0 < B)
    (wfg : GatherDims.WF ⟨2, ![B, F]⟩ ⟨2, ![N, 1]⟩ ⟨2, ![N, F]⟩ [1] [0] [] [0] [] 1 ![1, F])
    (wfs : ScatterDims.WF ⟨2, ![B, F]⟩ ⟨2, ![N, 1]⟩ ⟨2, ![N, F]⟩ [1] [0] [0] 1)
    (z x : FVec Ideal ⟨2, ![B, F]⟩ φ) (gi si : IVec ⟨2, ![N, 1]⟩ w) (s : Fin N → Fin B)
    (hs : ∀ e : Fin N, min (gi (colIdx e)).toInt.toNat (B - 1) = (s e).val) (r : Fin B) (k : Fin F) :
    Host.scatterAdd (F := Ideal) (segSumDims B F N wfs) z si (Host.gather (rowGatherDims B F N wfg) x gi) (ix2 r k)
      = z (ix2 r k) + ∑ e : Fin N, if (si (rowIdx e)).toInt = (r.val : Int) then x (ix2 (s e) k) else 0 := by
  rw [scatterAdd_rows_apply]
  refine congrArg (z (ix2 r k) + ·) (Finset.sum_congr rfl fun e _ => ?_)
  rw [gather_rows_apply hB]
  exact if_congr Iff.rfl (congrArg (fun t => x (ix2 t k)) (Fin.ext (hs e))) rfl

end Cert.HostInt

end
-- ==== Proof.KAggEntry.lean ====
/-
  An aggregation of the padded program, read at an entry.
-/
import proofs.«107483_j63513976373416_1_alg».proof.Proof.KHostDefs
import proofs.«107483_j63513976373416_1_alg».proof.Proof.Spec
import proofs.«107483_j63513976373416_1_alg».proof.Proof.LibGatherScatter
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx
open Cert.KernelIdeal Cert.KernelIdeal.Gen Cert.GCN Cert.HostInt

/-- The node whose row edge `e` reads, as a node of the padded axis, when every source word is a node of the
    unpadded one. -/
def srcNodeP (x1 : IVec S640000 32)
    (hs : ∀ e : Fin 640000, 0 ≤ BitVec.toInt (x1 (ix1 e)) ∧ BitVec.toInt (x1 (ix1 e)) < 50000) (e : Fin 640000) : Fin 50176 :=
  ⟨(BitVec.toInt (x1 (ix1 e))).toNat, by have := hs e; omega⟩

/-- A word that is not negative is below the zero word in no signed comparison, so moving the negative words up
    leaves it alone. -/
theorem wrap_word (x y : BitVec 32) (h0 : 0 ≤ x.toInt) :
    Scalar.select (IntOp.cmpi .slt x 0#32) y x = x := by
  have hc : IntOp.cmpi .slt x 0#32 = 0#1 := by
    show BitVec.ofBool (x.slt 0#32) = 0#1
    have hf : x.slt 0#32 = false := by
      rw [BitVec.slt]
      simp only [BitVec.toInt_zero, decide_eq_false_iff_not, not_lt]
      exact h0
    rw [hf]; rfl
  rw [hc]; exact select_zero _ _

/-- A vector of words laid out as a column reads, in row `e`, its entry `e`. -/
theorem wordCol_apply (x : IVec S640000 32) (e : Fin 640000) :
    broadcastInDim S640000x1 ![0] bcast_S640000_S640000x1_0 x (ix2 e ⟨0, Nat.one_pos⟩) = x (ix1 e) :=
  broadcastInDim_apply _ bcast_S640000_S640000x1_0 x _ (ix1 e) (fun a => match a with
    | ⟨0, _⟩ => by show e.val = if (640000 : Nat) = 1 then 0 else e.val; rw [if_neg (by decide)])

/-- A broadcast word reads that word everywhere. -/
theorem splat_apply (c : BitVec 32) (e : Fin 640000) :
    broadcastInDim S640000 ![] bcast_S_S640000 (constantI S_ 32 c) (ix1 e) = c :=
  broadcastInDim_apply _ bcast_S_S640000 (constantI S_ 32 c) _ (fun a => a.elim0) (fun a => a.elim0)

/-- The accumulator's initial value reads the zero word everywhere. -/
theorem zeros_apply (r : Fin 50176) (k : Fin 128) :
    broadcastInDim S50176x128 ![] bcast_S_S50176x128 (constant (F := Ideal) S_ .f32 0x00000000#32) (ix2 r k) = zeroW :=
  broadcastInDim_apply _ bcast_S_S50176x128 (constant (F := Ideal) S_ .f32 0x00000000#32) _ (fun a => a.elim0)
    (fun a => a.elim0)

/-- Entry `(r, k)` of an aggregation, when every source word is a node: no word is negative, so none is moved, and none
    is clamped. -/
theorem aggOf_entry (X : FVec Ideal S50176x128 .f32) (src dst : IVec S640000 32)
    (hs : ∀ e : Fin 640000, 0 ≤ BitVec.toInt (src (ix1 e)) ∧ BitVec.toInt (src (ix1 e)) < 50000)
    (r : Fin 50176) (k : Fin 128) :
    aggOf X src dst (ix2 r k)
      = zeroW + ∑ e : Fin 640000, if BitVec.toInt (dst (ix1 e)) = (r.val : Int) then X (ix2 (srcNodeP src hs e) k) else 0 := by
  unfold aggOf
  refine (scatterAdd_gather_rows_apply (B := 50176) (F := 128) (N := 640000) (φ := .f32) (by decide)
    Facts₀.gather_S50176x128_S640000x1_S640000x128_1_0_n_n_0_1_1128_wf Facts₀.scatter_S50176x128_S640000x1_S640000x128_1_0_0_1_wf _ X _ _ (srcNodeP src hs) (fun e => ?_) r k).trans ?_
  · rw [wordCol_apply]
    show min (BitVec.toInt (Scalar.select
        (IntOp.cmpi .slt (src (ix1 e)) (broadcastInDim S640000 ![] bcast_S_S640000 (constantI S_ 32 0#32) (ix1 e)))
        (IntOp.addi (src (ix1 e)) (broadcastInDim S640000 ![] bcast_S_S640000 (constantI S_ 32 50176#32) (ix1 e)))
        (src (ix1 e)))).toNat (50176 - 1) = (BitVec.toInt (src (ix1 e))).toNat
    rw [splat_apply 0#32 e, wrap_word _ _ (hs e).1]
    have := hs e
    omega
  · rw [zeros_apply]
    refine congrArg (zeroW + ·) (Finset.sum_congr rfl fun e _ => ?_)
    rw [wordCol_apply]

end Cert.KernelIdeal.KV

end
-- ==== Proof.KNet.lean ====
/-
  The padded program's result as one function of its arguments, and that function read at an entry.

  The result is the first 50000 rows of three layers over the padded node axis, each layer a scaling of the rows by the
  out-degree normalisation, an aggregation along the edges, and a layer region (scaling by the in-degree normalisation,
  product with the weights, bias, and in the first two layers the maximum with zero). Read at an entry, one layer is the
  layer formula `layerE` over 50176 nodes, so the whole is the network `net` over 50176 nodes with the padded features
  as its input.
-/
import proofs.«107483_j63513976373416_1_alg».proof.Proof.KDefs
import proofs.«107483_j63513976373416_1_alg».proof.Proof.KHostDefs
import proofs.«107483_j63513976373416_1_alg».proof.Proof.KHostEntries
import proofs.«107483_j63513976373416_1_alg».proof.Proof.KAggEntry

set_option maxRecDepth 16384

noncomputable section

namespace Cert.KernelIdeal.KV

open Idealize.ShloMosaic Idealize.ShloMosaic.TcCoe Idealize.ShloMosaic.ValueIdx
open Cert.KernelIdeal Cert.KernelIdeal.Gen Cert.GCN Cert.HostInt

/-- One layer over the padded axis before its activation: scale, aggregate, scale, project, shift. -/
def klayer (H : FVec Ideal S50176x128 .f32) (src dst : IVec S640000 32) (Wt : FVec Ideal S128x128 .f32)
    (bt : FVec Ideal S128 .f32) : FVec Ideal S50176x128 .f32 :=
  layerG (aggOf (scaleG H (invOf src)) src dst) (invOf dst) Wt bt

/-- The same followed by the maximum with the zero word. -/
def klayerRelu (H : FVec Ideal S50176x128 .f32) (src dst : IVec S640000 32) (Wt : FVec Ideal S128x128 .f32)
    (bt : FVec Ideal S128 .f32) : FVec Ideal S50176x128 .f32 :=
  layerReluG (aggOf (scaleG H (invOf src)) src dst) (invOf dst) Wt bt

/-- The padded program's result as a function of its nine arguments. -/
def kernelOut (feat : FVec Ideal S50000x128 .f32) (src dst : IVec S640000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) : FVec Ideal S50000x128 .f32 :=
  extractStridedSlice S50000x128 ![0, 0]
    (klayer (klayerRelu (klayerRelu (padOf feat) src dst W1 b1) src dst W2 b2) src dst W3 b3)
    slices_S50176x128_S50000x128_0_0

section
variable (src dst : IVec S640000 32)
  (hs : ∀ e : Fin 640000, 0 ≤ BitVec.toInt (src (ix1 e)) ∧ BitVec.toInt (src (ix1 e)) < 50000)

/-- ONE LAYER AT AN ENTRY: the layer formula over the padded axis. Entry `(r, q)` sums over `k` the aggregated,
    normalised entry `(r, k)` times the weight `(k, q)`; the aggregated entry is the sum over the edges into `r` of
    the scaled entry `(s e, k)` of the layer's input. -/
theorem klayer_entry (H : FVec Ideal S50176x128 .f32) (Wt : FVec Ideal S128x128 .f32) (bt : FVec Ideal S128 .f32)
    (r : Fin 50176) (q : Fin 128) :
    klayer H src dst Wt bt (ix2 r q)
      = layerE zeroW (fun e => BitVec.toInt (dst (ix1 e))) (srcNodeP src hs) (fun r k => H (ix2 r k))
          (fun r => invE zeroW oneW (fun e => BitVec.toInt (src (ix1 e))) r.val)
          (fun r => invE zeroW oneW (fun e => BitVec.toInt (dst (ix1 e))) r.val)
          (fun k q => Wt (ix2 k q)) (fun q => bt (ix1 q)) r q := by
  unfold klayer layerG layerE
  show (∑ k : Fin 128, (aggOf (scaleG H (invOf src)) src dst (ix2 r k) * invOf dst (ix1 r)) * Wt (ix2 k q)) + bt (ix1 q) = _
  refine congrArg (· + bt (ix1 q)) (Finset.sum_congr rfl fun k _ => ?_)
  refine (congrArg₂ (fun a b => a * b * Wt (ix2 k q)) (aggOf_entry (scaleG H (invOf src)) src dst hs r k)
    (invOf_entry dst r)).trans ?_
  refine congrArg (fun t => (zeroW + t) * invE zeroW oneW (fun e => BitVec.toInt (dst (ix1 e))) r.val * Wt (ix2 k q))
    (Finset.sum_congr rfl fun e _ => if_congr Iff.rfl ?_ rfl)
  show H (ix2 (srcNodeP src hs e) k) * invOf src (ix1 (srcNodeP src hs e)) = _
  exact congrArg (H (ix2 (srcNodeP src hs e) k) * ·) (invOf_entry src (srcNodeP src hs e))

theorem klayerRelu_entry (H : FVec Ideal S50176x128 .f32) (Wt : FVec Ideal S128x128 .f32) (bt : FVec Ideal S128 .f32)
    (r : Fin 50176) (q : Fin 128) :
    klayerRelu H src dst Wt bt (ix2 r q) = max (klayer H src dst Wt bt (ix2 r q)) zeroW := rfl

/-- THE PADDED PROGRAM'S RESULT AT AN ENTRY: the network over 50176 nodes, read in its first 50000 rows. -/
theorem kernelOut_entry (feat : FVec Ideal S50000x128 .f32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (i : Fin 50000) (j : Fin 128) :
    kernelOut feat src dst W1 b1 W2 b2 W3 b3 (ix2 i j)
      = net zeroW oneW (fun e => BitVec.toInt (src (ix1 e))) (fun e => BitVec.toInt (dst (ix1 e))) (srcNodeP src hs)
          (fun r k => padOf feat (ix2 r k)) (fun k q => W1 (ix2 k q)) (fun q => b1 (ix1 q)) (fun k q => W2 (ix2 k q))
          (fun q => b2 (ix1 q)) (fun k q => W3 (ix2 k q)) (fun q => b3 (ix1 q))
          (⟨i.val, Nat.lt_of_lt_of_le i.isLt (by decide)⟩ : Fin 50176) j := by
  unfold kernelOut net
  refine (slice_entry _ i j).trans ((klayer_entry src dst hs _ W3 b3 _ j).trans ?_)
  refine congrArg (fun h => layerE zeroW _ _ h _ _ _ _ _ j) (funext fun r => funext fun k => ?_)
  refine (klayerRelu_entry src dst _ W2 b2 r k).trans (congrArg (max · zeroW) ((klayer_entry src dst hs _ W2 b2 r k).trans ?_))
  refine congrArg (fun h => layerE zeroW _ _ h _ _ _ _ r k) (funext fun r' => funext fun k' => ?_)
  exact (klayerRelu_entry src dst _ W1 b1 r' k').trans (congrArg (max · zeroW) (klayer_entry src dst hs _ W1 b1 r' k'))

end

end Cert.KernelIdeal.KV

end
-- ==== Proof.ChainHostA.lean ====
/-
  What the first kernel region finds, read off the fold through the first stretch of host operations: the node features
  padded, and the normalisation vectors of the two columns of edge words.
-/
import proofs.«107483_j63513976373416_1_alg».proof.Proof.Gen.KernelIdeal.Frame
import Idealize.ShloMosaic.Lib.StableHlo.Run
import Idealize.ShloMosaic.PureOps.Ideal
import proofs.«107483_j63513976373416_1_alg».proof.Proof.KHostDefs

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem W7_v0 (c : Dev nD) :
    W7 m ρ c (Proc.devRef .tc main_v0) = padOf (m ((c : Thread nD τ).loc main_arg0)) := by
  dsimp only [W7, W6, W5, W4, W3, W2, W1]
  after_results
  rfl

theorem W7_v9 (c : Dev nD) :
    W7 m ρ c (Proc.devRef .tc main_v9) = invOf (m ((c : Thread nD τ).loc main_arg1)) := by
  dsimp only [W7, W6, W5, W4, W3, W2, W1]
  after_results
  rfl

theorem W7_v11 (c : Dev nD) :
    W7 m ρ c (Proc.devRef .tc main_v11) = invOf (m ((c : Thread nD τ).loc main_arg2)) := by
  dsimp only [W7, W6, W5, W4, W3, W2, W1]
  after_results
  rfl

end Cert.KernelIdeal.KV

end
-- ==== Proof.ChainHostB.lean ====
/-
  The three aggregations between the kernel regions and the final slice, read off the fold through the program: each
  aggregation's result is the aggregation of the previous region's output and the edge words as that stretch finds
  them; the program's result is the first 50000 rows of the last region's output.
-/
import proofs.«107483_j63513976373416_1_alg».proof.Proof.Gen.KernelIdeal.Frame
import Idealize.ShloMosaic.Lib.StableHlo.Run
import Idealize.ShloMosaic.PureOps.Ideal
import proofs.«107483_j63513976373416_1_alg».proof.Proof.KHostDefs

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem W9_v22 (c : Dev nD) :
    W9 m ρ c (Proc.devRef .tc main_v22) = aggOf (W8 m ρ c (Proc.devRef .tc main_v12))
      (W8 m ρ c (Proc.devRef .tc main_arg1)) (W8 m ρ c (Proc.devRef .tc main_arg2)) := by
  dsimp only [W9]
  after_results
  rfl

theorem W12_v34 (c : Dev nD) :
    W12 m ρ c (Proc.devRef .tc main_v34) = aggOf (W11 m ρ c (Proc.devRef .tc main_v24))
      (W11 m ρ c (Proc.devRef .tc main_arg1)) (W11 m ρ c (Proc.devRef .tc main_arg2)) := by
  dsimp only [W12]
  after_results
  rfl

theorem W15_v46 (c : Dev nD) :
    W15 m ρ c (Proc.devRef .tc main_v46) = aggOf (W14 m ρ c (Proc.devRef .tc main_v36))
      (W14 m ρ c (Proc.devRef .tc main_arg1)) (W14 m ρ c (Proc.devRef .tc main_arg2)) := by
  dsimp only [W15]
  after_results
  rfl

theorem W17_v48 (c : Dev nD) :
    W17 m ρ c (Proc.devRef .tc main_v48)
      = extractStridedSlice S50000x128 ![0, 0] (W16 m ρ c (Proc.devRef .tc main_v47)) slices_S50176x128_S50000x128_0_0 := by
  dsimp only [W17]
  after_results

end Cert.KernelIdeal.KV

end
-- ==== Proof.ChainKeep.lean ====
/-
  Buffers that a stretch of the padded program leaves alone.

  An argument array is written by no host operation and by no kernel region, so at every boundary it holds its launch
  contents. The two normalisation vectors are written once, before the first region, and by nothing afterwards, so
  every later region finds them as the first one did.
-/
import proofs.«107483_j63513976373416_1_alg».proof.Proof.Gen.KernelIdeal.Frame

set_option maxRecDepth 16384

noncomputable section

namespace Cert.KernelIdeal.KV

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The edge words as the first aggregation finds them are the launch contents. -/
theorem keep8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Nothing between the first and the second aggregation writes the edge words. -/
theorem keep11_8_main_arg1 (c : Dev nD) : W11 m ρ c (Proc.devRef .tc main_arg1) = W8 m ρ c (Proc.devRef .tc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between the second and the third aggregation writes the edge words. -/
theorem keep14_11_main_arg1 (c : Dev nD) : W14 m ρ c (Proc.devRef .tc main_arg1) = W11 m ρ c (Proc.devRef .tc main_arg1) :=
  calc W14 m ρ c (Proc.devRef .tc main_arg1)
    _ = W13 m ρ c (Proc.devRef .tc main_arg1) := W14_of_ne m ρ c main_arg1 (by decide)
    _ = W12 m ρ c (Proc.devRef .tc main_arg1) := W13_of_ne m ρ c main_arg1 (by decide)
    _ = W11 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The edge words as the first aggregation finds them are the launch contents. -/
theorem keep8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Nothing between the first and the second aggregation writes the edge words. -/
theorem keep11_8_main_arg2 (c : Dev nD) : W11 m ρ c (Proc.devRef .tc main_arg2) = W8 m ρ c (Proc.devRef .tc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between the second and the third aggregation writes the edge words. -/
theorem keep14_11_main_arg2 (c : Dev nD) : W14 m ρ c (Proc.devRef .tc main_arg2) = W11 m ρ c (Proc.devRef .tc main_arg2) :=
  calc W14 m ρ c (Proc.devRef .tc main_arg2)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first layer's weights as its region finds them are the launch contents. -/
theorem keep9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first layer's bias as its region finds it is the launch contents. -/
theorem keep9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The second layer's weights as its region finds them are the launch contents. -/
theorem keep12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The second layer's bias as its region finds it is the launch contents. -/
theorem keep12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The third layer's weights as its region finds them are the launch contents. -/
theorem keep15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg7) := W14_of_ne m ρ c main_arg7 (by decide)
    _ = W12 m ρ c (Proc.devRef .tc main_arg7) := W13_of_ne m ρ c main_arg7 (by decide)
    _ = W11 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The third layer's bias as its region finds it is the launch contents. -/
theorem keep15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The in-degree normalisation as the first layer's region finds it. -/
theorem keep9_main_v11 (c : Dev nD) : W9 m ρ c (Proc.devRef .tc main_v11) = W7 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := W8_of_ne m ρ c main_v11 (by decide)

/-- The in-degree normalisation as the second layer's region finds it: a region that only reads an array leaves it as it was. -/
theorem keep12_main_v11 (c : Dev nD) : W12 m ρ c (Proc.devRef .tc main_v11) = W9 m ρ c (Proc.devRef .tc main_v11) :=
  calc W12 m ρ c (Proc.devRef .tc main_v11)
    _ = W11 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v11) := W11_of_ne m ρ c main_v11 (by decide)
    _ = W9 m ρ c (Proc.devRef .tc main_v11) := (W10_arr m ρ c 1).trans (((dat1 (V9 m ρ) c).arrAt_in 1 rfl _).trans (A_eq1 (V9 m ρ) c 1))

/-- The in-degree normalisation as the third layer's region finds it. -/
theorem keep15_main_v11 (c : Dev nD) : W15 m ρ c (Proc.devRef .tc main_v11) = W12 m ρ c (Proc.devRef .tc main_v11) :=
  calc W15 m ρ c (Proc.devRef .tc main_v11)
    _ = W14 m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v11) := W14_of_ne m ρ c main_v11 (by decide)
    _ = W12 m ρ c (Proc.devRef .tc main_v11) := (W13_arr m ρ c 1).trans (((dat3 (V12 m ρ) c).arrAt_in 1 rfl _).trans (A_eq3 (V12 m ρ) c 1))

/-- The out-degree normalisation as the second scaling region finds it. -/
theorem keep10_main_v9 (c : Dev nD) : W10 m ρ c (Proc.devRef .tc main_v9) = W7 m ρ c (Proc.devRef .tc main_v9) :=
  calc W10 m ρ c (Proc.devRef .tc main_v9)
    _ = W9 m ρ c (Proc.devRef .tc main_v9) := W10_of_ne m ρ c main_v9 (by decide)
    _ = W8 m ρ c (Proc.devRef .tc main_v9) := StableHlo.after_of_forall_not_mem (b := Proc.devRef .tc main_v9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v9) := (W8_arr m ρ c 1).trans (((dat0 (V7 m ρ) c).arrAt_in 1 rfl _).trans (A_eq0 (V7 m ρ) c 1))

/-- The out-degree normalisation as the third scaling region finds it. -/
theorem keep13_main_v9 (c : Dev nD) : W13 m ρ c (Proc.devRef .tc main_v9) = W10 m ρ c (Proc.devRef .tc main_v9) :=
  calc W13 m ρ c (Proc.devRef .tc main_v9)
    _ = W12 m ρ c (Proc.devRef .tc main_v9) := W13_of_ne m ρ c main_v9 (by decide)
    _ = W11 m ρ c (Proc.devRef .tc main_v9) := StableHlo.after_of_forall_not_mem (b := Proc.devRef .tc main_v9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v9) := (W11_arr m ρ c 1).trans (((dat2 (V10 m ρ) c).arrAt_in 1 rfl _).trans (A_eq2 (V10 m ρ) c 1))

end Cert.KernelIdeal.KV

end
-- ==== Proof.Pay.lean ====
/-
  The arithmetic of the two kernel bodies, read at an entry of the 1024 × 128 block they store.

  Every body first scales row `p` of the loaded block by entry `p` of the loaded vector: the vector is viewed as a
  column and the column is repeated along each row. A layer body then narrows the format of the scaled block and of the
  weight (the identity on extended reals), contracts the two over their common axis into an accumulator of zero words,
  adds the bias — a vector viewed as a row, the row repeated down each column — and, in the first two layers, takes
  the maximum with the zero word. Read at entry `(p, q)` this is a sum over the 128 positions of the common axis.
-/
import proofs.«107483_j63513976373416_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## A vector viewed as a column, and a column repeated along the rows -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The pieces of a body at an entry -/

/-- THE SCALED BLOCK: entry `(p, q)` is the block's entry times entry `p` of the vector. The two casts to the same
    shape are the identity; the column read at `(p, 0)` is the vector at `p`. -/
theorem scaled_apply (x0 : FVec Ideal S1024x128 .f32) (x1 : FVec Ideal S1024 .f32)
    (h0 : S1024x128.ShapeCasts S1024x128) (h1 : S1024.ShapeCasts S1024) (h2 : S1024.ShapeCasts S1024x1)
    (h3 : S1024x1.Broadcasts S1024x128) (p : Fin 1024) (q : Fin 128) :
    mulf (shapeCast S1024x128 x0 h0) (broadcastTo S1024x128 (shapeCast S1024x1 (shapeCast S1024 x1 h1) h2) h3) (ix2 p q)
      = x0 (ix2 p q) * x1 (ix1 p) := by
  refine (mulf_apply _ _ _).trans ?_
  rw [shapeCast_self x0 h0, shapeCast_self x1 h1]
  exact congrArg (x0 (ix2 p q) * ·) ((broadcastTo_a1_ab_apply _ h3 p q).trans (shapeCast_a_a1_apply x1 h2 p 0))

/-- THE BIAS: a vector viewed as a row and repeated down the columns reads, at `(p, q)`, the vector at `q`. -/
theorem bias_apply (x3 : FVec Ideal S128 .f32) (h4 : S128.ShapeCasts S1x128) (h5 : S1x128.Broadcasts S1024x128)
    (p : Fin 1024) (q : Fin 128) :
    broadcastTo S1024x128 (shapeCast S1x128 x3 h4) h5 (ix2 p q) = x3 (ix1 q) :=
  (broadcastTo_1b_ab_apply _ h5 p q).trans (shapeCast_a_1a_apply x3 h4 0 q)

/-- On the left operand the contraction index sits on the second axis, the output's row on the first … -/
theorem lhs_0 (i : S1024x128.Idx) (c : dot_S1024x128_S128x128_S1024x128_1_0_0_1_n_n.contr.Idx) :
    (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs_1 (i : S1024x128.Idx) (c : dot_S1024x128_S128x128_S1024x128_1_0_0_1_n_n.contr.Idx) :
    (dot_S1024x128_S128x128_S1024x128_1_0_0_1_n_n.lhsIdx i c 1).val = (c ⟨0, by decide⟩).val :=
  dot_S1024x128_S128x128_S1024x128_1_0_0_1_n_n.lhsIdx_val_of_single rfl i c
/-- … and on the right operand the contraction index sits on the first axis, the output's column on the second. -/
theorem rhs_0 (i : S1024x128.Idx) (c : dot_S1024x128_S128x128_S1024x128_1_0_0_1_n_n.contr.Idx) :
    (dot_S1024x128_S128x128_S1024x128_1_0_0_1_n_n.rhsIdx i c 0).val = (c ⟨0, by decide⟩).val :=
  dot_S1024x128_S128x128_S1024x128_1_0_0_1_n_n.rhsIdx_val_of_single rfl i c
theorem rhs_1 (i : S1024x128.Idx) (c : dot_S1024x128_S128x128_S1024x128_1_0_0_1_n_n.contr.Idx) :
    (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- THE CONTRACTION into zero words: entry `(p, q)` is the sum over the common axis of the products of row `p` of the
    left operand with column `q` of the right one. The contraction's index set has one axis of extent 128; the sum is
    carried over to `Fin 128` along that identification. -/
theorem contract_apply (A : FVec Ideal S1024x128 .bf16) (B : FVec Ideal S128x128 .bf16) (p : Fin 1024) (q : Fin 128) :
    matmul dot_S1024x128_S128x128_S1024x128_1_0_0_1_n_n none A B (constant (F := Ideal) S1024x128 .f32 0x00000000#32) (ix2 p q)
      = ∑ k : Fin 128, A (ix2 p k) * B (ix2 k q) := by
  refine (Ideal.matmul_constant_zero_apply dot_S1024x128_S128x128_S1024x128_1_0_0_1_n_n none A B (ix2 p q)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q)
      ((contrEquiv1 dot_S1024x128_S128x128_S1024x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S1024x128_S128x128_S1024x128_1_0_0_1_n_n.rhsIdx (ix2 p q)
      ((contrEquiv1 dot_S1024x128_S128x128_S1024x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## The three bodies -/

/-- The scaling body: entry `(p, q)` of the stored block is the loaded entry times entry `p` of the loaded vector. -/
theorem scale_pay (x0 : FVec Ideal S1024x128 .f32) (x1 : FVec Ideal S1024 .f32) (p : Fin 1024) (q : Fin 128) :
    k0_pay1 (F := Ideal) x0 x1 (ix2 p q) = x0 (ix2 p q) * x1 (ix1 p) := by
  unfold k0_pay1
  exact scaled_apply x0 x1 _ _ _ _ p q

/-- The last layer's body: scale, project, shift. -/
theorem layer_pay (x0 : FVec Ideal S1024x128 .f32) (x1 : FVec Ideal S1024 .f32) (x2 : FVec Ideal S128x128 .f32)
    (x3 : FVec Ideal S128 .f32) (p : Fin 1024) (q : Fin 128) :
    k5_pay1 (F := Ideal) x0 x1 x2 x3 (ix2 p q)
      = (∑ k : Fin 128, (x0 (ix2 p k) * x1 (ix1 p)) * x2 (ix2 k q)) + x3 (ix1 q) := by
  unfold k5_pay1
  refine (addf_apply _ _ _).trans ?_
  refine congrArg₂ (· + ·) ((contract_apply _ _ p q).trans (Finset.sum_congr rfl fun k _ => ?_)) (bias_apply x3 _ _ p q)
  exact congrArg (· * x2 (ix2 k q)) (scaled_apply x0 x1 _ _ _ _ p k)

/-- The first two layers' body: the same followed by the maximum with the zero word. -/
theorem layer_relu_pay (x0 : FVec Ideal S1024x128 .f32) (x1 : FVec Ideal S1024 .f32) (x2 : FVec Ideal S128x128 .f32)
    (x3 : FVec Ideal S128 .f32) (p : Fin 1024) (q : Fin 128) :
    k1_pay1 (F := Ideal) x0 x1 x2 x3 (ix2 p q)
      = max ((∑ k : Fin 128, (x0 (ix2 p k) * x1 (ix1 p)) * x2 (ix2 k q)) + x3 (ix1 q))
          (Ideal.ofBits .f32 0x00000000#32) := by
  unfold k1_pay1
  refine (maximumf_apply _ _ _).trans ?_
  refine congrArg (max · (Ideal.ofBits .f32 0x00000000#32)) ?_
  refine (addf_apply _ _ _).trans ?_
  refine congrArg₂ (· + ·) ((contract_apply _ _ p q).trans (Finset.sum_congr rfl fun k _ => ?_)) (bias_apply x3 _ _ p q)
  exact congrArg (· * x2 (ix2 k q)) (scaled_apply x0 x1 _ _ _ _ p k)

end Cert.KernelIdeal.Pay

end
-- ==== Proof.Blocks.lean ====
/-
  From blocks to arrays: what each of the six kernel regions leaves in its output array.

  Each region runs its body once per grid point `t = 0 … 48`. At point `t` the body sees rows `1024 t … 1024 t + 1023`
  of the arrays it reads along the node axis (and, in a layer region, the whole weight matrix and the whole bias), and
  its result is written back to the same rows of the output array. Since `49 · 1024 = 50176` the row blocks tile the
  padded node axis, so every entry of the output array is written, by the point `row / 1024`. What is written at
  entry `(1024 t + p, q)` is the body's arithmetic at entry `(p, q)` of its block, which only involves row
  `1024 t + p` of the inputs: so the output array is one function of the whole input arrays, read entry by entry.

  Per region: the block index of every window at a point; each input block read as entries of its array; where an
  entry of the output block sits in the output array; the written-back block as a block of the whole-array function;
  membership in a block by coordinates; the cover; the output array.
-/
import proofs.«107483_j63513976373416_1_alg».proof.Proof.Gen.KernelIdeal.Frame
import proofs.«107483_j63513976373416_1_alg».proof.Proof.KDefs
import proofs.«107483_j63513976373416_1_alg».proof.Proof.Pay

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The bodies at an entry, over any blocks that are rows of whole arrays -/

/-- The zero offsets of a rank-2 and of a rank-1 buffer, as constant functions. -/
theorem zero2 : (![0, 0] : Fin 2 → Nat) = fun _ => 0 := funext fun a => by fin_cases a <;> rfl
theorem zero1 : (![0] : Fin 1 → Nat) = fun _ => 0 := funext fun a => by fin_cases a; rfl

/-- The scaling body at an entry of its block, when the loaded block entry is the array's entry `i` and the loaded
    vector entry is the vector's entry at the row of `i`: it is the scaled array at `i`. -/
theorem scale_entry (x0 : FVec Ideal S1024x128 .f32) (x1 : FVec Ideal S1024 .f32) (x : FVec Ideal S50176x128 .f32)
    (v : FVec Ideal S50176 .f32) (j : S1024x128.Idx) (i : S50176x128.Idx)
    (h0 : x0 j = x i) (h1 : x1 (ix1 (j 0)) = v (ix1 ⟨(i 0).val, (i 0).isLt⟩)) :
    k0_pay1 (F := Ideal) x0 x1 j = scaleG x v i := by
  obtain ⟨p, q, rfl⟩ : ∃ (p : Fin 1024) (q : Fin 128), j = ix2 p q := ⟨j 0, j 1, eq_ix2 j⟩
  rw [Pay.scale_pay]
  unfold scaleG
  rw [h0]
  exact congrArg _ h1

/-- The last layer's body at entry `(p, q)` of its block, when row `p` of the loaded block is the row of `i` of the
    array, entry `p` of the loaded vector the vector's entry at that row, and the loaded matrix and bias are the whole
    matrix and bias read at the column of `i`: it is the layer function at `i`. -/
theorem layer_entry (x0 : FVec Ideal S1024x128 .f32) (x1 : FVec Ideal S1024 .f32) (x2 : FVec Ideal S128x128 .f32)
    (x3 : FVec Ideal S128 .f32) (x : FVec Ideal S50176x128 .f32) (v : FVec Ideal S50176 .f32)
    (W : FVec Ideal S128x128 .f32) (b : FVec Ideal S128 .f32) (p : Fin 1024) (q : Fin 128) (i : S50176x128.Idx)
    (h0 : ∀ k : Fin 128, x0 (ix2 p k) = x (ix2 ⟨(i 0).val, (i 0).isLt⟩ k))
    (h1 : x1 (ix1 p) = v (ix1 ⟨(i 0).val, (i 0).isLt⟩))
    (h2 : ∀ k : Fin 128, x2 (ix2 k q) = W (ix2 k ⟨(i 1).val, (i 1).isLt⟩))
    (h3 : x3 (ix1 q) = b (ix1 ⟨(i 1).val, (i 1).isLt⟩)) :
    k5_pay1 (F := Ideal) x0 x1 x2 x3 (ix2 p q) = layerG x v W b i := by
  rw [Pay.layer_pay]
  unfold layerG
  rw [h1, h3]
  congr 1
  exact Finset.sum_congr rfl fun k _ => by rw [h0 k, h2 k]

/-- The first two layers' body, under the same hypotheses: the layer function followed by the maximum with the zero word. -/
theorem layer_relu_entry (x0 : FVec Ideal S1024x128 .f32) (x1 : FVec Ideal S1024 .f32) (x2 : FVec Ideal S128x128 .f32)
    (x3 : FVec Ideal S128 .f32) (x : FVec Ideal S50176x128 .f32) (v : FVec Ideal S50176 .f32)
    (W : FVec Ideal S128x128 .f32) (b : FVec Ideal S128 .f32) (p : Fin 1024) (q : Fin 128) (i : S50176x128.Idx)
    (h0 : ∀ k : Fin 128, x0 (ix2 p k) = x (ix2 ⟨(i 0).val, (i 0).isLt⟩ k))
    (h1 : x1 (ix1 p) = v (ix1 ⟨(i 0).val, (i 0).isLt⟩))
    (h2 : ∀ k : Fin 128, x2 (ix2 k q) = W (ix2 k ⟨(i 1).val, (i 1).isLt⟩))
    (h3 : x3 (ix1 q) = b (ix1 ⟨(i 1).val, (i 1).isLt⟩)) :
    k1_pay1 (F := Ideal) x0 x1 x2 x3 (ix2 p q) = layerReluG x v W b i := by
  rw [Pay.layer_relu_pay]
  unfold layerReluG layerG
  rw [h1, h3]
  congr 2
  exact Finset.sum_congr rfl fun k _ => by rw [h0 k, h2 k]

/-! ## Region 0: rows of `main_v0` scaled by `main_v9` -/

/-- The block indices of region 0's windows at grid point `t`: block `t` along the rows, block 0 along the columns. -/
theorem index0 : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

/-- Entry `j` of the block of rows at point `t` is the array's entry at row `1024 t + j 0`, column `j 1`. -/
theorem rows0_apply (c : Dev nD) (t : Fin cfg0.N) (j : S1024x128.Idx) (k : S50176x128.Idx)
    (hk0 : (k 0).val = t.val * 1024 + (j 0).val) (hk1 : (k 1).val = (j 1).val) :
    (iblk0 V c 0 t : Vec Ideal S1024x128 .f32) j = (V c main_v0 : S50176x128.Idx → Elt Ideal .f32) k := by
  obtain ⟨e0, e1, -, -, -⟩ := index0 t
  unfold iblk0
  rw [View.read_apply]
  show (V c main_v0 : S50176x128.Idx → Elt Ideal .f32) _ = V c main_v0 k
  congr 1
  funext a
  apply Fin.ext
  match a with
  | ⟨0, _⟩ => show win0_0.index t 0 * 1024 + 1 * (j 0).val = (k 0).val; rw [e0, hk0]; omega
  | ⟨1, _⟩ => show win0_0.index t 1 * 128 + 1 * (j 1).val = (k 1).val; rw [e1, hk1]; omega

/-- Entry `j` of the block of the scaling vector at point `t` is the vector's entry `1024 t + j 0`. -/
theorem vec0_apply (c : Dev nD) (t : Fin cfg0.N) (j : S1024.Idx) (k : S50176.Idx)
    (hk0 : (k 0).val = t.val * 1024 + (j 0).val) :
    (iblk0 V c 1 t : Vec Ideal S1024 .f32) j = (V c main_v9 : S50176.Idx → Elt Ideal .f32) k := by
  obtain ⟨-, -, e0, -, -⟩ := index0 t
  unfold iblk0
  rw [View.read_apply]
  show (V c main_v9 : S50176.Idx → Elt Ideal .f32) _ = V c main_v9 k
  congr 1
  funext a
  apply Fin.ext
  match a with
  | ⟨0, _⟩ => show win0_1.index t 0 * 1024 + 1 * (j 0).val = (k 0).val; rw [e0, hk0]; omega

/-- Where entry `j` of the output block at point `t` sits in the output array: row `1024 t + j 0`, column `j 1`. -/
theorem out0_emb (t : Fin cfg0.N) (j : S1024x128.Idx) :
    ((((cfg0.win 2).blk t).view.emb j : S50176x128.Idx) 0).val = t.val * 1024 + (j 0).val
    ∧ ((((cfg0.win 2).blk t).view.emb j : S50176x128.Idx) 1).val = (j 1).val := by
  obtain ⟨-, -, -, e0, e1⟩ := index0 t
  constructor
  · show win0_2.index t 0 * 1024 + 1 * (j 0).val = _; rw [e0]; omega
  · show win0_2.index t 1 * 128 + 1 * (j 1).val = _; rw [e1]; omega

/-- What point `t` writes back is block `t` of the scaled array. -/
theorem flushed0 (c : Dev nD) (t : Fin cfg0.N) :
    (dat0 (F := Ideal) V c).flushed 2 t
      = ((cfg0.win 2).blk t).view.read (Elt Ideal) (scaleG (V c main_v0) (V c main_v9)) := by
  show (cfg0.win 2).cut (grid0.coords t) ((dat0 V c).after 2 t) = _
  rw [after0_2]
  unfold out0_2
  rw [View.canon_unit_zero zero2]
  simp only [View.ld_unit_zero (S := S1024x128) zero2, View.ld_unit_zero (S := S1024) zero1]
  refine funext fun (j : S1024x128.Idx) => ?_
  obtain ⟨h0, h1⟩ := out0_emb t j
  show k0_pay1 (F := Ideal) (iblk0 V c 0 t) (iblk0 V c 1 t) j
    = scaleG (V c main_v0) (V c main_v9) (((cfg0.win 2).blk t).view.emb j)
  exact scale_entry (iblk0 V c 0 t) (iblk0 V c 1 t) (V c main_v0) (V c main_v9) j (((cfg0.win 2).blk t).view.emb j)
    (rows0_apply V c t j _ h0 h1) (vec0_apply V c t (ix1 (j 0)) _ h0)

/-- An entry of the output array is in point `t`'s block iff each coordinate is in the block's range on its axis. -/
theorem mem_blk0 (t : Fin cfg0.N) (i : S50176x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v12).slice (win0_2.rect t)).set ↔ _
  rw [View.set_slice_whole, Rect.mem_set_unit]
  exact Iff.rfl

/-- Every entry of the output array is written back: row `r` by the point `r / 1024`. -/
theorem cover0 (i : S50176x128.Idx) :
    ∃ t : Fin cfg0.N, (cfg0.win 2).flush t = true ∧ i ∈ ((cfg0.win 2).blk t).view.set := by
  have hi0 : (i 0).val < 50176 := (i 0).isLt
  have hi1 : (i 1).val < 128 := (i 1).isLt
  have ht : (i 0).val / 1024 < cfg0.N := by show (i 0).val / 1024 < 49; omega
  refine ⟨⟨(i 0).val / 1024, ht⟩, flush0_2 _, ?_⟩
  rw [mem_blk0]
  obtain ⟨-, -, -, e0, e1⟩ := index0 ⟨(i 0).val / 1024, ht⟩
  intro a
  match a with
  | ⟨0, _⟩ => show win0_2.index ⟨(i 0).val / 1024, ht⟩ (0 : Fin 2) * 1024 ≤ (i 0).val ∧ (i 0).val < win0_2.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win0_2.index ⟨(i 0).val / 1024, ht⟩ (1 : Fin 2) * 128 ≤ (i 1).val ∧ (i 1).val < win0_2.index ⟨(i 0).val / 1024, ht⟩ (1 : Fin 2) * 128 + 128; rw [e1]; omega

/-- After region 0 its output array is the scaled array. -/
theorem region0 (c : Dev nD) : (dat0 (F := Ideal) V c).arrAt 2 cfg0.N = scaleG (V c main_v0) (V c main_v9) :=
  (dat0 V c).arrAt_eq_of_cover 2 (scaleG (V c main_v0) (V c main_v9)) (fun t _ => flushed0 V c t) cover0

/-! ## Region 1: rows of `main_v22` scaled by `main_v11`, projected by `main_arg3`, shifted by `main_arg4`, cut at the zero word -/

/-- The block indices of region 1's windows at grid point `t`: block `t` along the rows for the row blocks, block 0
    on every axis for the matrix and the bias. -/
theorem index1 : ∀ t : Fin cfg1.N, win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Entry `(p, q)` of the block of rows at point `t` is the array's entry at row `1024 t + p`, column `q`. -/
theorem rows1_apply (c : Dev nD) (t : Fin cfg1.N) (p : Fin 1024) (q : Fin 128) (r : Fin 50176) (s : Fin 128)
    (hr : r.val = t.val * 1024 + p.val) (hs : s.val = q.val) :
    (iblk1 V c 0 t : Vec Ideal S1024x128 .f32) (ix2 p q) = (V c main_v22 : S50176x128.Idx → Elt Ideal .f32) (ix2 r s) := by
  obtain ⟨e0, e1, -, -, -, -, -, -⟩ := index1 t
  unfold iblk1
  rw [View.read_apply]
  show (V c main_v22 : S50176x128.Idx → Elt Ideal .f32) _ = V c main_v22 (ix2 r s)
  congr 1
  funext a
  apply Fin.ext
  match a with
  | ⟨0, _⟩ => show win1_0.index t 0 * 1024 + 1 * p.val = r.val; rw [e0, hr]; omega
  | ⟨1, _⟩ => show win1_0.index t 1 * 128 + 1 * q.val = s.val; rw [e1, hs]; omega

/-- Entry `p` of the block of the scaling vector at point `t` is the vector's entry `1024 t + p`. -/
theorem vec1_apply (c : Dev nD) (t : Fin cfg1.N) (p : Fin 1024) (r : Fin 50176)
    (hr : r.val = t.val * 1024 + p.val) :
    (iblk1 V c 1 t : Vec Ideal S1024 .f32) (ix1 p) = (V c main_v11 : S50176.Idx → Elt Ideal .f32) (ix1 r) := by
  obtain ⟨-, -, e0, -, -, -, -, -⟩ := index1 t
  unfold iblk1
  rw [View.read_apply]
  show (V c main_v11 : S50176.Idx → Elt Ideal .f32) _ = V c main_v11 (ix1 r)
  congr 1
  funext a
  apply Fin.ext
  match a with
  | ⟨0, _⟩ => show win1_1.index t 0 * 1024 + 1 * p.val = r.val; rw [e0, hr]; omega

/-- The matrix window's block at every point is the whole matrix. -/
theorem weight1_apply (c : Dev nD) (t : Fin cfg1.N) (k q : Fin 128) (s : Fin 128) (hs : s.val = q.val) :
    (iblk1 V c 2 t : Vec Ideal S128x128 .f32) (ix2 k q) = (V c main_arg3 : S128x128.Idx → Elt Ideal .f32) (ix2 k s) := by
  obtain ⟨-, -, -, e0, e1, -, -, -⟩ := index1 t
  unfold iblk1
  rw [View.read_apply]
  show (V c main_arg3 : S128x128.Idx → Elt Ideal .f32) _ = V c main_arg3 (ix2 k s)
  congr 1
  funext a
  apply Fin.ext
  match a with
  | ⟨0, _⟩ => show win1_2.index t 0 * 128 + 1 * k.val = k.val; rw [e0]; omega
  | ⟨1, _⟩ => show win1_2.index t 1 * 128 + 1 * q.val = s.val; rw [e1, hs]; omega

/-- The bias window's block at every point is the whole bias. -/
theorem bias1_apply (c : Dev nD) (t : Fin cfg1.N) (q : Fin 128) (s : Fin 128) (hs : s.val = q.val) :
    (iblk1 V c 3 t : Vec Ideal S128 .f32) (ix1 q) = (V c main_arg4 : S128.Idx → Elt Ideal .f32) (ix1 s) := by
  obtain ⟨-, -, -, -, -, e0, -, -⟩ := index1 t
  unfold iblk1
  rw [View.read_apply]
  show (V c main_arg4 : S128.Idx → Elt Ideal .f32) _ = V c main_arg4 (ix1 s)
  congr 1
  funext a
  apply Fin.ext
  match a with
  | ⟨0, _⟩ => show win1_3.index t 0 * 128 + 1 * q.val = s.val; rw [e0, hs]; omega

/-- Where entry `(p, q)` of the output block at point `t` sits in the output array: row `1024 t + p`, column `q`. -/
theorem out1_emb (t : Fin cfg1.N) (p : Fin 1024) (q : Fin 128) :
    ((((cfg1.win 4).blk t).view.emb (ix2 p q) : S50176x128.Idx) 0).val = t.val * 1024 + p.val
    ∧ ((((cfg1.win 4).blk t).view.emb (ix2 p q) : S50176x128.Idx) 1).val = q.val := by
  obtain ⟨-, -, -, -, -, -, e0, e1⟩ := index1 t
  constructor
  · show win1_4.index t 0 * 1024 + 1 * p.val = _; rw [e0]; omega
  · show win1_4.index t 1 * 128 + 1 * q.val = _; rw [e1]; omega

/-- The body at point `t`, read at entry `(p, q)` of its block, is the layer function of the whole arrays at any
    entry `i` of row `1024 t + p` and column `q`. -/
theorem body1_apply (c : Dev nD) (t : Fin cfg1.N) (p : Fin 1024) (q : Fin 128) (i : S50176x128.Idx)
    (hi0 : (i 0).val = t.val * 1024 + p.val) (hi1 : (i 1).val = q.val) :
    k1_pay1 (F := Ideal) (iblk1 V c 0 t) (iblk1 V c 1 t) (iblk1 V c 2 t) (iblk1 V c 3 t) (ix2 p q)
      = layerReluG (V c main_v22) (V c main_v11) (V c main_arg3) (V c main_arg4) i :=
  layer_relu_entry (iblk1 V c 0 t) (iblk1 V c 1 t) (iblk1 V c 2 t) (iblk1 V c 3 t)
    (V c main_v22) (V c main_v11) (V c main_arg3) (V c main_arg4) p q i
    (fun k => rows1_apply V c t p k ⟨(i 0).val, (i 0).isLt⟩ k hi0 rfl)
    (vec1_apply V c t p ⟨(i 0).val, (i 0).isLt⟩ hi0)
    (fun k => weight1_apply V c t k q ⟨(i 1).val, (i 1).isLt⟩ hi1)
    (bias1_apply V c t q ⟨(i 1).val, (i 1).isLt⟩ hi1)

/-- What point `t` writes back is block `t` of the layer function of the whole arrays. -/
theorem flushed1 (c : Dev nD) (t : Fin cfg1.N) :
    (dat1 (F := Ideal) V c).flushed 4 t
      = ((cfg1.win 4).blk t).view.read (Elt Ideal) (layerReluG (V c main_v22) (V c main_v11) (V c main_arg3) (V c main_arg4)) := by
  show (cfg1.win 4).cut (grid1.coords t) ((dat1 V c).after 4 t) = _
  rw [after1_4]
  unfold out1_4
  rw [View.canon_unit_zero zero2]
  simp only [View.ld_unit_zero (S := S1024x128) zero2, View.ld_unit_zero (S := S1024) zero1,
    View.ld_unit_zero (S := S128x128) zero2, View.ld_unit_zero (S := S128) zero1]
  refine funext fun (j : S1024x128.Idx) => ?_
  obtain ⟨p, q, rfl⟩ : ∃ (p : Fin 1024) (q : Fin 128), j = ix2 p q := ⟨j 0, j 1, eq_ix2 j⟩
  obtain ⟨h0, h1⟩ := out1_emb t p q
  show k1_pay1 (F := Ideal) (iblk1 V c 0 t) (iblk1 V c 1 t) (iblk1 V c 2 t) (iblk1 V c 3 t) (ix2 p q)
    = layerReluG (V c main_v22) (V c main_v11) (V c main_arg3) (V c main_arg4) (((cfg1.win 4).blk t).view.emb (ix2 p q))
  exact body1_apply V c t p q _ h0 h1

/-- An entry of the output array is in point `t`'s block iff each coordinate is in the block's range on its axis. -/
theorem mem_blk1 (t : Fin cfg1.N) (i : S50176x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v23).slice (win1_4.rect t)).set ↔ _
  rw [View.set_slice_whole, Rect.mem_set_unit]
  exact Iff.rfl

/-- Every entry of the output array is written back: row `r` by the point `r / 1024`. -/
theorem cover1 (i : S50176x128.Idx) :
    ∃ t : Fin cfg1.N, (cfg1.win 4).flush t = true ∧ i ∈ ((cfg1.win 4).blk t).view.set := by
  have hi0 : (i 0).val < 50176 := (i 0).isLt
  have hi1 : (i 1).val < 128 := (i 1).isLt
  have ht : (i 0).val / 1024 < cfg1.N := by show (i 0).val / 1024 < 49; omega
  refine ⟨⟨(i 0).val / 1024, ht⟩, flush1_4 _, ?_⟩
  rw [mem_blk1]
  obtain ⟨-, -, -, -, -, -, e0, e1⟩ := index1 ⟨(i 0).val / 1024, ht⟩
  intro a
  match a with
  | ⟨0, _⟩ => show win1_4.index ⟨(i 0).val / 1024, ht⟩ (0 : Fin 2) * 1024 ≤ (i 0).val ∧ (i 0).val < win1_4.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win1_4.index ⟨(i 0).val / 1024, ht⟩ (1 : Fin 2) * 128 ≤ (i 1).val ∧ (i 1).val < win1_4.index ⟨(i 0).val / 1024, ht⟩ (1 : Fin 2) * 128 + 128; rw [e1]; omega

/-- After region 1 its output array is the layer function of the arrays it reads. -/
theorem region1 (c : Dev nD) :
    (dat1 (F := Ideal) V c).arrAt 4 cfg1.N = layerReluG (V c main_v22) (V c main_v11) (V c main_arg3) (V c main_arg4) :=
  (dat1 V c).arrAt_eq_of_cover 4 (layerReluG (V c main_v22) (V c main_v11) (V c main_arg3) (V c main_arg4)) (fun t _ => flushed1 V c t) cover1

/-! ## Region 2: rows of `main_v23` scaled by `main_v9` -/

/-- The block indices of region 2's windows at grid point `t`: block `t` along the rows, block 0 along the columns. -/
theorem index2 : ∀ t : Fin cfg2.N, win2_0.index t (0 : Fin 2) = t.val ∧ win2_0.index t (1 : Fin 2) = 0
    ∧ win2_1.index t (0 : Fin 1) = t.val
    ∧ win2_2.index t (0 : Fin 2) = t.val ∧ win2_2.index t (1 : Fin 2) = 0 :=
  (by decide +kernel : ∀ t : Fin grid2.N, _)

/-- Entry `j` of the block of rows at point `t` is the array's entry at row `1024 t + j 0`, column `j 1`. -/
theorem rows2_apply (c : Dev nD) (t : Fin cfg2.N) (j : S1024x128.Idx) (k : S50176x128.Idx)
    (hk0 : (k 0).val = t.val * 1024 + (j 0).val) (hk1 : (k 1).val = (j 1).val) :
    (iblk2 V c 0 t : Vec Ideal S1024x128 .f32) j = (V c main_v23 : S50176x128.Idx → Elt Ideal .f32) k := by
  obtain ⟨e0, e1, -, -, -⟩ := index2 t
  unfold iblk2
  rw [View.read_apply]
  show (V c main_v23 : S50176x128.Idx → Elt Ideal .f32) _ = V c main_v23 k
  congr 1
  funext a
  apply Fin.ext
  match a with
  | ⟨0, _⟩ => show win2_0.index t 0 * 1024 + 1 * (j 0).val = (k 0).val; rw [e0, hk0]; omega
  | ⟨1, _⟩ => show win2_0.index t 1 * 128 + 1 * (j 1).val = (k 1).val; rw [e1, hk1]; omega

/-- Entry `j` of the block of the scaling vector at point `t` is the vector's entry `1024 t + j 0`. -/
theorem vec2_apply (c : Dev nD) (t : Fin cfg2.N) (j : S1024.Idx) (k : S50176.Idx)
    (hk0 : (k 0).val = t.val * 1024 + (j 0).val) :
    (iblk2 V c 1 t : Vec Ideal S1024 .f32) j = (V c main_v9 : S50176.Idx → Elt Ideal .f32) k := by
  obtain ⟨-, -, e0, -, -⟩ := index2 t
  unfold iblk2
  rw [View.read_apply]
  show (V c main_v9 : S50176.Idx → Elt Ideal .f32) _ = V c main_v9 k
  congr 1
  funext a
  apply Fin.ext
  match a with
  | ⟨0, _⟩ => show win2_1.index t 0 * 1024 + 1 * (j 0).val = (k 0).val; rw [e0, hk0]; omega

/-- Where entry `j` of the output block at point `t` sits in the output array: row `1024 t + j 0`, column `j 1`. -/
theorem out2_emb (t : Fin cfg2.N) (j : S1024x128.Idx) :
    ((((cfg2.win 2).blk t).view.emb j : S50176x128.Idx) 0).val = t.val * 1024 + (j 0).val
    ∧ ((((cfg2.win 2).blk t).view.emb j : S50176x128.Idx) 1).val = (j 1).val := by
  obtain ⟨-, -, -, e0, e1⟩ := index2 t
  constructor
  · show win2_2.index t 0 * 1024 + 1 * (j 0).val = _; rw [e0]; omega
  · show win2_2.index t 1 * 128 + 1 * (j 1).val = _; rw [e1]; omega

/-- What point `t` writes back is block `t` of the scaled array. -/
theorem flushed2 (c : Dev nD) (t : Fin cfg2.N) :
    (dat2 (F := Ideal) V c).flushed 2 t
      = ((cfg2.win 2).blk t).view.read (Elt Ideal) (scaleG (V c main_v23) (V c main_v9)) := by
  show (cfg2.win 2).cut (grid2.coords t) ((dat2 V c).after 2 t) = _
  rw [after2_2]
  unfold out2_2
  rw [View.canon_unit_zero zero2]
  simp only [View.ld_unit_zero (S := S1024x128) zero2, View.ld_unit_zero (S := S1024) zero1]
  refine funext fun (j : S1024x128.Idx) => ?_
  obtain ⟨h0, h1⟩ := out2_emb t j
  show k2_pay1 (F := Ideal) (iblk2 V c 0 t) (iblk2 V c 1 t) j
    = scaleG (V c main_v23) (V c main_v9) (((cfg2.win 2).blk t).view.emb j)
  exact scale_entry (iblk2 V c 0 t) (iblk2 V c 1 t) (V c main_v23) (V c main_v9) j (((cfg2.win 2).blk t).view.emb j)
    (rows2_apply V c t j _ h0 h1) (vec2_apply V c t (ix1 (j 0)) _ h0)

/-- An entry of the output array is in point `t`'s block iff each coordinate is in the block's range on its axis. -/
theorem mem_blk2 (t : Fin cfg2.N) (i : S50176x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v24).slice (win2_2.rect t)).set ↔ _
  rw [View.set_slice_whole, Rect.mem_set_unit]
  exact Iff.rfl

/-- Every entry of the output array is written back: row `r` by the point `r / 1024`. -/
theorem cover2 (i : S50176x128.Idx) :
    ∃ t : Fin cfg2.N, (cfg2.win 2).flush t = true ∧ i ∈ ((cfg2.win 2).blk t).view.set := by
  have hi0 : (i 0).val < 50176 := (i 0).isLt
  have hi1 : (i 1).val < 128 := (i 1).isLt
  have ht : (i 0).val / 1024 < cfg2.N := by show (i 0).val / 1024 < 49; omega
  refine ⟨⟨(i 0).val / 1024, ht⟩, flush2_2 _, ?_⟩
  rw [mem_blk2]
  obtain ⟨-, -, -, e0, e1⟩ := index2 ⟨(i 0).val / 1024, ht⟩
  intro a
  match a with
  | ⟨0, _⟩ => show win2_2.index ⟨(i 0).val / 1024, ht⟩ (0 : Fin 2) * 1024 ≤ (i 0).val ∧ (i 0).val < win2_2.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win2_2.index ⟨(i 0).val / 1024, ht⟩ (1 : Fin 2) * 128 ≤ (i 1).val ∧ (i 1).val < win2_2.index ⟨(i 0).val / 1024, ht⟩ (1 : Fin 2) * 128 + 128; rw [e1]; omega

/-- After region 2 its output array is the scaled array. -/
theorem region2 (c : Dev nD) : (dat2 (F := Ideal) V c).arrAt 2 cfg2.N = scaleG (V c main_v23) (V c main_v9) :=
  (dat2 V c).arrAt_eq_of_cover 2 (scaleG (V c main_v23) (V c main_v9)) (fun t _ => flushed2 V c t) cover2

/-! ## Region 3: rows of `main_v34` scaled by `main_v11`, projected by `main_arg5`, shifted by `main_arg6`, cut at the zero word -/

/-- The block indices of region 3's windows at grid point `t`: block `t` along the rows for the row blocks, block 0
    on every axis for the matrix and the bias. -/
theorem index3 : ∀ t : Fin cfg3.N, win3_0.index t (0 : Fin 2) = t.val ∧ win3_0.index t (1 : Fin 2) = 0
    ∧ win3_1.index t (0 : Fin 1) = t.val
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Entry `(p, q)` of the block of rows at point `t` is the array's entry at row `1024 t + p`, column `q`. -/
theorem rows3_apply (c : Dev nD) (t : Fin cfg3.N) (p : Fin 1024) (q : Fin 128) (r : Fin 50176) (s : Fin 128)
    (hr : r.val = t.val * 1024 + p.val) (hs : s.val = q.val) :
    (iblk3 V c 0 t : Vec Ideal S1024x128 .f32) (ix2 p q) = (V c main_v34 : S50176x128.Idx → Elt Ideal .f32) (ix2 r s) := by
  obtain ⟨e0, e1, -, -, -, -, -, -⟩ := index3 t
  unfold iblk3
  rw [View.read_apply]
  show (V c main_v34 : S50176x128.Idx → Elt Ideal .f32) _ = V c main_v34 (ix2 r s)
  congr 1
  funext a
  apply Fin.ext
  match a with
  | ⟨0, _⟩ => show win3_0.index t 0 * 1024 + 1 * p.val = r.val; rw [e0, hr]; omega
  | ⟨1, _⟩ => show win3_0.index t 1 * 128 + 1 * q.val = s.val; rw [e1, hs]; omega

/-- Entry `p` of the block of the scaling vector at point `t` is the vector's entry `1024 t + p`. -/
theorem vec3_apply (c : Dev nD) (t : Fin cfg3.N) (p : Fin 1024) (r : Fin 50176)
    (hr : r.val = t.val * 1024 + p.val) :
    (iblk3 V c 1 t : Vec Ideal S1024 .f32) (ix1 p) = (V c main_v11 : S50176.Idx → Elt Ideal .f32) (ix1 r) := by
  obtain ⟨-, -, e0, -, -, -, -, -⟩ := index3 t
  unfold iblk3
  rw [View.read_apply]
  show (V c main_v11 : S50176.Idx → Elt Ideal .f32) _ = V c main_v11 (ix1 r)
  congr 1
  funext a
  apply Fin.ext
  match a with
  | ⟨0, _⟩ => show win3_1.index t 0 * 1024 + 1 * p.val = r.val; rw [e0, hr]; omega

/-- The matrix window's block at every point is the whole matrix. -/
theorem weight3_apply (c : Dev nD) (t : Fin cfg3.N) (k q : Fin 128) (s : Fin 128) (hs : s.val = q.val) :
    (iblk3 V c 2 t : Vec Ideal S128x128 .f32) (ix2 k q) = (V c main_arg5 : S128x128.Idx → Elt Ideal .f32) (ix2 k s) := by
  obtain ⟨-, -, -, e0, e1, -, -, -⟩ := index3 t
  unfold iblk3
  rw [View.read_apply]
  show (V c main_arg5 : S128x128.Idx → Elt Ideal .f32) _ = V c main_arg5 (ix2 k s)
  congr 1
  funext a
  apply Fin.ext
  match a with
  | ⟨0, _⟩ => show win3_2.index t 0 * 128 + 1 * k.val = k.val; rw [e0]; omega
  | ⟨1, _⟩ => show win3_2.index t 1 * 128 + 1 * q.val = s.val; rw [e1, hs]; omega

/-- The bias window's block at every point is the whole bias. -/
theorem bias3_apply (c : Dev nD) (t : Fin cfg3.N) (q : Fin 128) (s : Fin 128) (hs : s.val = q.val) :
    (iblk3 V c 3 t : Vec Ideal S128 .f32) (ix1 q) = (V c main_arg6 : S128.Idx → Elt Ideal .f32) (ix1 s) := by
  obtain ⟨-, -, -, -, -, e0, -, -⟩ := index3 t
  unfold iblk3
  rw [View.read_apply]
  show (V c main_arg6 : S128.Idx → Elt Ideal .f32) _ = V c main_arg6 (ix1 s)
  congr 1
  funext a
  apply Fin.ext
  match a with
  | ⟨0, _⟩ => show win3_3.index t 0 * 128 + 1 * q.val = s.val; rw [e0, hs]; omega

/-- Where entry `(p, q)` of the output block at point `t` sits in the output array: row `1024 t + p`, column `q`. -/
theorem out3_emb (t : Fin cfg3.N) (p : Fin 1024) (q : Fin 128) :
    ((((cfg3.win 4).blk t).view.emb (ix2 p q) : S50176x128.Idx) 0).val = t.val * 1024 + p.val
    ∧ ((((cfg3.win 4).blk t).view.emb (ix2 p q) : S50176x128.Idx) 1).val = q.val := by
  obtain ⟨-, -, -, -, -, -, e0, e1⟩ := index3 t
  constructor
  · show win3_4.index t 0 * 1024 + 1 * p.val = _; rw [e0]; omega
  · show win3_4.index t 1 * 128 + 1 * q.val = _; rw [e1]; omega

/-- The body at point `t`, read at entry `(p, q)` of its block, is the layer function of the whole arrays at any
    entry `i` of row `1024 t + p` and column `q`. -/
theorem body3_apply (c : Dev nD) (t : Fin cfg3.N) (p : Fin 1024) (q : Fin 128) (i : S50176x128.Idx)
    (hi0 : (i 0).val = t.val * 1024 + p.val) (hi1 : (i 1).val = q.val) :
    k3_pay1 (F := Ideal) (iblk3 V c 0 t) (iblk3 V c 1 t) (iblk3 V c 2 t) (iblk3 V c 3 t) (ix2 p q)
      = layerReluG (V c main_v34) (V c main_v11) (V c main_arg5) (V c main_arg6) i :=
  layer_relu_entry (iblk3 V c 0 t) (iblk3 V c 1 t) (iblk3 V c 2 t) (iblk3 V c 3 t)
    (V c main_v34) (V c main_v11) (V c main_arg5) (V c main_arg6) p q i
    (fun k => rows3_apply V c t p k ⟨(i 0).val, (i 0).isLt⟩ k hi0 rfl)
    (vec3_apply V c t p ⟨(i 0).val, (i 0).isLt⟩ hi0)
    (fun k => weight3_apply V c t k q ⟨(i 1).val, (i 1).isLt⟩ hi1)
    (bias3_apply V c t q ⟨(i 1).val, (i 1).isLt⟩ hi1)

/-- What point `t` writes back is block `t` of the layer function of the whole arrays. -/
theorem flushed3 (c : Dev nD) (t : Fin cfg3.N) :
    (dat3 (F := Ideal) V c).flushed 4 t
      = ((cfg3.win 4).blk t).view.read (Elt Ideal) (layerReluG (V c main_v34) (V c main_v11) (V c main_arg5) (V c main_arg6)) := by
  show (cfg3.win 4).cut (grid3.coords t) ((dat3 V c).after 4 t) = _
  rw [after3_4]
  unfold out3_4
  rw [View.canon_unit_zero zero2]
  simp only [View.ld_unit_zero (S := S1024x128) zero2, View.ld_unit_zero (S := S1024) zero1,
    View.ld_unit_zero (S := S128x128) zero2, View.ld_unit_zero (S := S128) zero1]
  refine funext fun (j : S1024x128.Idx) => ?_
  obtain ⟨p, q, rfl⟩ : ∃ (p : Fin 1024) (q : Fin 128), j = ix2 p q := ⟨j 0, j 1, eq_ix2 j⟩
  obtain ⟨h0, h1⟩ := out3_emb t p q
  show k3_pay1 (F := Ideal) (iblk3 V c 0 t) (iblk3 V c 1 t) (iblk3 V c 2 t) (iblk3 V c 3 t) (ix2 p q)
    = layerReluG (V c main_v34) (V c main_v11) (V c main_arg5) (V c main_arg6) (((cfg3.win 4).blk t).view.emb (ix2 p q))
  exact body3_apply V c t p q _ h0 h1

/-- An entry of the output array is in point `t`'s block iff each coordinate is in the block's range on its axis. -/
theorem mem_blk3 (t : Fin cfg3.N) (i : S50176x128.Idx) :
    i ∈ ((cfg3.win 4).blk t).view.set ↔ ∀ a : Fin 2, win3_4.index t a * S1024x128.size a ≤ (i a).val ∧ (i a).val < win3_4.index t a * S1024x128.size a + S1024x128.size a := by
  show i ∈ ((View.whole main_v35).slice (win3_4.rect t)).set ↔ _
  rw [View.set_slice_whole, Rect.mem_set_unit]
  exact Iff.rfl

/-- Every entry of the output array is written back: row `r` by the point `r / 1024`. -/
theorem cover3 (i : S50176x128.Idx) :
    ∃ t : Fin cfg3.N, (cfg3.win 4).flush t = true ∧ i ∈ ((cfg3.win 4).blk t).view.set := by
  have hi0 : (i 0).val < 50176 := (i 0).isLt
  have hi1 : (i 1).val < 128 := (i 1).isLt
  have ht : (i 0).val / 1024 < cfg3.N := by show (i 0).val / 1024 < 49; omega
  refine ⟨⟨(i 0).val / 1024, ht⟩, flush3_4 _, ?_⟩
  rw [mem_blk3]
  obtain ⟨-, -, -, -, -, -, e0, e1⟩ := index3 ⟨(i 0).val / 1024, ht⟩
  intro a
  match a with
  | ⟨0, _⟩ => show win3_4.index ⟨(i 0).val / 1024, ht⟩ (0 : Fin 2) * 1024 ≤ (i 0).val ∧ (i 0).val < win3_4.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win3_4.index ⟨(i 0).val / 1024, ht⟩ (1 : Fin 2) * 128 ≤ (i 1).val ∧ (i 1).val < win3_4.index ⟨(i 0).val / 1024, ht⟩ (1 : Fin 2) * 128 + 128; rw [e1]; omega

/-- After region 3 its output array is the layer function of the arrays it reads. -/
theorem region3 (c : Dev nD) :
    (dat3 (F := Ideal) V c).arrAt 4 cfg3.N = layerReluG (V c main_v34) (V c main_v11) (V c main_arg5) (V c main_arg6) :=
  (dat3 V c).arrAt_eq_of_cover 4 (layerReluG (V c main_v34) (V c main_v11) (V c main_arg5) (V c main_arg6)) (fun t _ => flushed3 V c t) cover3

/-! ## Region 4: rows of `main_v35` scaled by `main_v9` -/

/-- The block indices of region 4's windows at grid point `t`: block `t` along the rows, block 0 along the columns. -/
theorem index4 : ∀ t : Fin cfg4.N, win4_0.index t (0 : Fin 2) = t.val ∧ win4_0.index t (1 : Fin 2) = 0
    ∧ win4_1.index t (0 : Fin 1) = t.val
    ∧ win4_2.index t (0 : Fin 2) = t.val ∧ win4_2.index t (1 : Fin 2) = 0 :=
  (by decide +kernel : ∀ t : Fin grid4.N, _)

/-- Entry `j` of the block of rows at point `t` is the array's entry at row `1024 t + j 0`, column `j 1`. -/
theorem rows4_apply (c : Dev nD) (t : Fin cfg4.N) (j : S1024x128.Idx) (k : S50176x128.Idx)
    (hk0 : (k 0).val = t.val * 1024 + (j 0).val) (hk1 : (k 1).val = (j 1).val) :
    (iblk4 V c 0 t : Vec Ideal S1024x128 .f32) j = (V c main_v35 : S50176x128.Idx → Elt Ideal .f32) k := by
  obtain ⟨e0, e1, -, -, -⟩ := index4 t
  unfold iblk4
  rw [View.read_apply]
  show (V c main_v35 : S50176x128.Idx → Elt Ideal .f32) _ = V c main_v35 k
  congr 1
  funext a
  apply Fin.ext
  match a with
  | ⟨0, _⟩ => show win4_0.index t 0 * 1024 + 1 * (j 0).val = (k 0).val; rw [e0, hk0]; omega
  | ⟨1, _⟩ => show win4_0.index t 1 * 128 + 1 * (j 1).val = (k 1).val; rw [e1, hk1]; omega

/-- Entry `j` of the block of the scaling vector at point `t` is the vector's entry `1024 t + j 0`. -/
theorem vec4_apply (c : Dev nD) (t : Fin cfg4.N) (j : S1024.Idx) (k : S50176.Idx)
    (hk0 : (k 0).val = t.val * 1024 + (j 0).val) :
    (iblk4 V c 1 t : Vec Ideal S1024 .f32) j = (V c main_v9 : S50176.Idx → Elt Ideal .f32) k := by
  obtain ⟨-, -, e0, -, -⟩ := index4 t
  unfold iblk4
  rw [View.read_apply]
  show (V c main_v9 : S50176.Idx → Elt Ideal .f32) _ = V c main_v9 k
  congr 1
  funext a
  apply Fin.ext
  match a with
  | ⟨0, _⟩ => show win4_1.index t 0 * 1024 + 1 * (j 0).val = (k 0).val; rw [e0, hk0]; omega

/-- Where entry `j` of the output block at point `t` sits in the output array: row `1024 t + j 0`, column `j 1`. -/
theorem out4_emb (t : Fin cfg4.N) (j : S1024x128.Idx) :
    ((((cfg4.win 2).blk t).view.emb j : S50176x128.Idx) 0).val = t.val * 1024 + (j 0).val
    ∧ ((((cfg4.win 2).blk t).view.emb j : S50176x128.Idx) 1).val = (j 1).val := by
  obtain ⟨-, -, -, e0, e1⟩ := index4 t
  constructor
  · show win4_2.index t 0 * 1024 + 1 * (j 0).val = _; rw [e0]; omega
  · show win4_2.index t 1 * 128 + 1 * (j 1).val = _; rw [e1]; omega

/-- What point `t` writes back is block `t` of the scaled array. -/
theorem flushed4 (c : Dev nD) (t : Fin cfg4.N) :
    (dat4 (F := Ideal) V c).flushed 2 t
      = ((cfg4.win 2).blk t).view.read (Elt Ideal) (scaleG (V c main_v35) (V c main_v9)) := by
  show (cfg4.win 2).cut (grid4.coords t) ((dat4 V c).after 2 t) = _
  rw [after4_2]
  unfold out4_2
  rw [View.canon_unit_zero zero2]
  simp only [View.ld_unit_zero (S := S1024x128) zero2, View.ld_unit_zero (S := S1024) zero1]
  refine funext fun (j : S1024x128.Idx) => ?_
  obtain ⟨h0, h1⟩ := out4_emb t j
  show k4_pay1 (F := Ideal) (iblk4 V c 0 t) (iblk4 V c 1 t) j
    = scaleG (V c main_v35) (V c main_v9) (((cfg4.win 2).blk t).view.emb j)
  exact scale_entry (iblk4 V c 0 t) (iblk4 V c 1 t) (V c main_v35) (V c main_v9) j (((cfg4.win 2).blk t).view.emb j)
    (rows4_apply V c t j _ h0 h1) (vec4_apply V c t (ix1 (j 0)) _ h0)

/-- An entry of the output array is in point `t`'s block iff each coordinate is in the block's range on its axis. -/
theorem mem_blk4 (t : Fin cfg4.N) (i : S50176x128.Idx) :
    i ∈ ((cfg4.win 2).blk t).view.set ↔ ∀ a : Fin 2, win4_2.index t a * S1024x128.size a ≤ (i a).val ∧ (i a).val < win4_2.index t a * S1024x128.size a + S1024x128.size a := by
  show i ∈ ((View.whole main_v36).slice (win4_2.rect t)).set ↔ _
  rw [View.set_slice_whole, Rect.mem_set_unit]
  exact Iff.rfl

/-- Every entry of the output array is written back: row `r` by the point `r / 1024`. -/
theorem cover4 (i : S50176x128.Idx) :
    ∃ t : Fin cfg4.N, (cfg4.win 2).flush t = true ∧ i ∈ ((cfg4.win 2).blk t).view.set := by
  have hi0 : (i 0).val < 50176 := (i 0).isLt
  have hi1 : (i 1).val < 128 := (i 1).isLt
  have ht : (i 0).val / 1024 < cfg4.N := by show (i 0).val / 1024 < 49; omega
  refine ⟨⟨(i 0).val / 1024, ht⟩, flush4_2 _, ?_⟩
  rw [mem_blk4]
  obtain ⟨-, -, -, e0, e1⟩ := index4 ⟨(i 0).val / 1024, ht⟩
  intro a
  match a with
  | ⟨0, _⟩ => show win4_2.index ⟨(i 0).val / 1024, ht⟩ (0 : Fin 2) * 1024 ≤ (i 0).val ∧ (i 0).val < win4_2.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win4_2.index ⟨(i 0).val / 1024, ht⟩ (1 : Fin 2) * 128 ≤ (i 1).val ∧ (i 1).val < win4_2.index ⟨(i 0).val / 1024, ht⟩ (1 : Fin 2) * 128 + 128; rw [e1]; omega

/-- After region 4 its output array is the scaled array. -/
theorem region4 (c : Dev nD) : (dat4 (F := Ideal) V c).arrAt 2 cfg4.N = scaleG (V c main_v35) (V c main_v9) :=
  (dat4 V c).arrAt_eq_of_cover 2 (scaleG (V c main_v35) (V c main_v9)) (fun t _ => flushed4 V c t) cover4

/-! ## Region 5: rows of `main_v46` scaled by `main_v11`, projected by `main_arg7`, shifted by `main_arg8` -/

/-- The block indices of region 5's windows at grid point `t`: block `t` along the rows for the row blocks, block 0
    on every axis for the matrix and the bias. -/
theorem index5 : ∀ t : Fin cfg5.N, win5_0.index t (0 : Fin 2) = t.val ∧ win5_0.index t (1 : Fin 2) = 0
    ∧ win5_1.index t (0 : Fin 1) = t.val
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Entry `(p, q)` of the block of rows at point `t` is the array's entry at row `1024 t + p`, column `q`. -/
theorem rows5_apply (c : Dev nD) (t : Fin cfg5.N) (p : Fin 1024) (q : Fin 128) (r : Fin 50176) (s : Fin 128)
    (hr : r.val = t.val * 1024 + p.val) (hs : s.val = q.val) :
    (iblk5 V c 0 t : Vec Ideal S1024x128 .f32) (ix2 p q) = (V c main_v46 : S50176x128.Idx → Elt Ideal .f32) (ix2 r s) := by
  obtain ⟨e0, e1, -, -, -, -, -, -⟩ := index5 t
  unfold iblk5
  rw [View.read_apply]
  show (V c main_v46 : S50176x128.Idx → Elt Ideal .f32) _ = V c main_v46 (ix2 r s)
  congr 1
  funext a
  apply Fin.ext
  match a with
  | ⟨0, _⟩ => show win5_0.index t 0 * 1024 + 1 * p.val = r.val; rw [e0, hr]; omega
  | ⟨1, _⟩ => show win5_0.index t 1 * 128 + 1 * q.val = s.val; rw [e1, hs]; omega

/-- Entry `p` of the block of the scaling vector at point `t` is the vector's entry `1024 t + p`. -/
theorem vec5_apply (c : Dev nD) (t : Fin cfg5.N) (p : Fin 1024) (r : Fin 50176)
    (hr : r.val = t.val * 1024 + p.val) :
    (iblk5 V c 1 t : Vec Ideal S1024 .f32) (ix1 p) = (V c main_v11 : S50176.Idx → Elt Ideal .f32) (ix1 r) := by
  obtain ⟨-, -, e0, -, -, -, -, -⟩ := index5 t
  unfold iblk5
  rw [View.read_apply]
  show (V c main_v11 : S50176.Idx → Elt Ideal .f32) _ = V c main_v11 (ix1 r)
  congr 1
  funext a
  apply Fin.ext
  match a with
  | ⟨0, _⟩ => show win5_1.index t 0 * 1024 + 1 * p.val = r.val; rw [e0, hr]; omega

/-- The matrix window's block at every point is the whole matrix. -/
theorem weight5_apply (c : Dev nD) (t : Fin cfg5.N) (k q : Fin 128) (s : Fin 128) (hs : s.val = q.val) :
    (iblk5 V c 2 t : Vec Ideal S128x128 .f32) (ix2 k q) = (V c main_arg7 : S128x128.Idx → Elt Ideal .f32) (ix2 k s) := by
  obtain ⟨-, -, -, e0, e1, -, -, -⟩ := index5 t
  unfold iblk5
  rw [View.read_apply]
  show (V c main_arg7 : S128x128.Idx → Elt Ideal .f32) _ = V c main_arg7 (ix2 k s)
  congr 1
  funext a
  apply Fin.ext
  match a with
  | ⟨0, _⟩ => show win5_2.index t 0 * 128 + 1 * k.val = k.val; rw [e0]; omega
  | ⟨1, _⟩ => show win5_2.index t 1 * 128 + 1 * q.val = s.val; rw [e1, hs]; omega

/-- The bias window's block at every point is the whole bias. -/
theorem bias5_apply (c : Dev nD) (t : Fin cfg5.N) (q : Fin 128) (s : Fin 128) (hs : s.val = q.val) :
    (iblk5 V c 3 t : Vec Ideal S128 .f32) (ix1 q) = (V c main_arg8 : S128.Idx → Elt Ideal .f32) (ix1 s) := by
  obtain ⟨-, -, -, -, -, e0, -, -⟩ := index5 t
  unfold iblk5
  rw [View.read_apply]
  show (V c main_arg8 : S128.Idx → Elt Ideal .f32) _ = V c main_arg8 (ix1 s)
  congr 1
  funext a
  apply Fin.ext
  match a with
  | ⟨0, _⟩ => show win5_3.index t 0 * 128 + 1 * q.val = s.val; rw [e0, hs]; omega

/-- Where entry `(p, q)` of the output block at point `t` sits in the output array: row `1024 t + p`, column `q`. -/
theorem out5_emb (t : Fin cfg5.N) (p : Fin 1024) (q : Fin 128) :
    ((((cfg5.win 4).blk t).view.emb (ix2 p q) : S50176x128.Idx) 0).val = t.val * 1024 + p.val
    ∧ ((((cfg5.win 4).blk t).view.emb (ix2 p q) : S50176x128.Idx) 1).val = q.val := by
  obtain ⟨-, -, -, -, -, -, e0, e1⟩ := index5 t
  constructor
  · show win5_4.index t 0 * 1024 + 1 * p.val = _; rw [e0]; omega
  · show win5_4.index t 1 * 128 + 1 * q.val = _; rw [e1]; omega

/-- The body at point `t`, read at entry `(p, q)` of its block, is the layer function of the whole arrays at any
    entry `i` of row `1024 t + p` and column `q`. -/
theorem body5_apply (c : Dev nD) (t : Fin cfg5.N) (p : Fin 1024) (q : Fin 128) (i : S50176x128.Idx)
    (hi0 : (i 0).val = t.val * 1024 + p.val) (hi1 : (i 1).val = q.val) :
    k5_pay1 (F := Ideal) (iblk5 V c 0 t) (iblk5 V c 1 t) (iblk5 V c 2 t) (iblk5 V c 3 t) (ix2 p q)
      = layerG (V c main_v46) (V c main_v11) (V c main_arg7) (V c main_arg8) i :=
  layer_entry (iblk5 V c 0 t) (iblk5 V c 1 t) (iblk5 V c 2 t) (iblk5 V c 3 t)
    (V c main_v46) (V c main_v11) (V c main_arg7) (V c main_arg8) p q i
    (fun k => rows5_apply V c t p k ⟨(i 0).val, (i 0).isLt⟩ k hi0 rfl)
    (vec5_apply V c t p ⟨(i 0).val, (i 0).isLt⟩ hi0)
    (fun k => weight5_apply V c t k q ⟨(i 1).val, (i 1).isLt⟩ hi1)
    (bias5_apply V c t q ⟨(i 1).val, (i 1).isLt⟩ hi1)

/-- What point `t` writes back is block `t` of the layer function of the whole arrays. -/
theorem flushed5 (c : Dev nD) (t : Fin cfg5.N) :
    (dat5 (F := Ideal) V c).flushed 4 t
      = ((cfg5.win 4).blk t).view.read (Elt Ideal) (layerG (V c main_v46) (V c main_v11) (V c main_arg7) (V c main_arg8)) := by
  show (cfg5.win 4).cut (grid5.coords t) ((dat5 V c).after 4 t) = _
  rw [after5_4]
  unfold out5_4
  rw [View.canon_unit_zero zero2]
  simp only [View.ld_unit_zero (S := S1024x128) zero2, View.ld_unit_zero (S := S1024) zero1,
    View.ld_unit_zero (S := S128x128) zero2, View.ld_unit_zero (S := S128) zero1]
  refine funext fun (j : S1024x128.Idx) => ?_
  obtain ⟨p, q, rfl⟩ : ∃ (p : Fin 1024) (q : Fin 128), j = ix2 p q := ⟨j 0, j 1, eq_ix2 j⟩
  obtain ⟨h0, h1⟩ := out5_emb t p q
  show k5_pay1 (F := Ideal) (iblk5 V c 0 t) (iblk5 V c 1 t) (iblk5 V c 2 t) (iblk5 V c 3 t) (ix2 p q)
    = layerG (V c main_v46) (V c main_v11) (V c main_arg7) (V c main_arg8) (((cfg5.win 4).blk t).view.emb (ix2 p q))
  exact body5_apply V c t p q _ h0 h1

/-- An entry of the output array is in point `t`'s block iff each coordinate is in the block's range on its axis. -/
theorem mem_blk5 (t : Fin cfg5.N) (i : S50176x128.Idx) :
    i ∈ ((cfg5.win 4).blk t).view.set ↔ ∀ a : Fin 2, win5_4.index t a * S1024x128.size a ≤ (i a).val ∧ (i a).val < win5_4.index t a * S1024x128.size a + S1024x128.size a := by
  show i ∈ ((View.whole main_v47).slice (win5_4.rect t)).set ↔ _
  rw [View.set_slice_whole, Rect.mem_set_unit]
  exact Iff.rfl

/-- Every entry of the output array is written back: row `r` by the point `r / 1024`. -/
theorem cover5 (i : S50176x128.Idx) :
    ∃ t : Fin cfg5.N, (cfg5.win 4).flush t = true ∧ i ∈ ((cfg5.win 4).blk t).view.set := by
  have hi0 : (i 0).val < 50176 := (i 0).isLt
  have hi1 : (i 1).val < 128 := (i 1).isLt
  have ht : (i 0).val / 1024 < cfg5.N := by show (i 0).val / 1024 < 49; omega
  refine ⟨⟨(i 0).val / 1024, ht⟩, flush5_4 _, ?_⟩
  rw [mem_blk5]
  obtain ⟨-, -, -, -, -, -, e0, e1⟩ := index5 ⟨(i 0).val / 1024, ht⟩
  intro a
  match a with
  | ⟨0, _⟩ => show win5_4.index ⟨(i 0).val / 1024, ht⟩ (0 : Fin 2) * 1024 ≤ (i 0).val ∧ (i 0).val < win5_4.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win5_4.index ⟨(i 0).val / 1024, ht⟩ (1 : Fin 2) * 128 ≤ (i 1).val ∧ (i 1).val < win5_4.index ⟨(i 0).val / 1024, ht⟩ (1 : Fin 2) * 128 + 128; rw [e1]; omega

/-- After region 5 its output array is the layer function of the arrays it reads. -/
theorem region5 (c : Dev nD) :
    (dat5 (F := Ideal) V c).arrAt 4 cfg5.N = layerG (V c main_v46) (V c main_v11) (V c main_arg7) (V c main_arg8) :=
  (dat5 V c).arrAt_eq_of_cover 4 (layerG (V c main_v46) (V c main_v11) (V c main_arg7) (V c main_arg8)) (fun t _ => flushed5 V c t) cover5

end Cert.KernelIdeal.KV

end
-- ==== Proof.KFold.lean ====
/-
  The padded program's result, read off the fold through its seventeen segments, is the function `kernelOut` of the
  launch contents of its arguments.

  Walking the segments: the first stretch leaves the padded features and the two normalisation vectors; each scaling
  region leaves its input scaled by the out-degree normalisation, which no earlier segment has touched since it was
  made; each aggregation reads that region's output and the edge words, which are still the launch contents; each layer
  region reads the aggregation, the in-degree normalisation, and its weights and bias, again untouched; the last stretch
  slices.
-/
import proofs.«107483_j63513976373416_1_alg».proof.Proof.ChainHostA
import proofs.«107483_j63513976373416_1_alg».proof.Proof.ChainHostB
import proofs.«107483_j63513976373416_1_alg».proof.Proof.ChainKeep
import proofs.«107483_j63513976373416_1_alg».proof.Proof.Blocks
import proofs.«107483_j63513976373416_1_alg».proof.Proof.KNet

set_option maxRecDepth 16384

noncomputable section

namespace Cert.KernelIdeal.KV

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The first layer -/

/-- The first scaling region leaves the padded features scaled by the out-degree normalisation. -/
theorem scaled1 (c : Dev nD) : W8 m ρ c (Proc.devRef .tc main_v12) = scaleG (padOf (m ((c : Thread nD τ).loc main_arg0))) (invOf (m ((c : Thread nD τ).loc main_arg1))) := by
  refine (W8_arr m ρ c 2).trans ((region0 (V7 m ρ) c).trans ?_)
  show scaleG (W7 m ρ c (Proc.devRef .tc main_v0)) (W7 m ρ c (Proc.devRef .tc main_v9)) = _
  rw [W7_v0, W7_v9]

/-- The first aggregation reads that and the edge words. -/
theorem agg1 (c : Dev nD) : W9 m ρ c (Proc.devRef .tc main_v22) = aggOf (scaleG (padOf (m ((c : Thread nD τ).loc main_arg0))) (invOf (m ((c : Thread nD τ).loc main_arg1)))) (m ((c : Thread nD τ).loc main_arg1)) (m ((c : Thread nD τ).loc main_arg2)) := by
  rw [W9_v22, scaled1, keep8_main_arg1, keep8_main_arg2]

/-- The first layer region leaves the first layer. -/
theorem layer1 (c : Dev nD) : W10 m ρ c (Proc.devRef .tc main_v23) = klayerRelu (padOf (m ((c : Thread nD τ).loc main_arg0))) (m ((c : Thread nD τ).loc main_arg1)) (m ((c : Thread nD τ).loc main_arg2)) (m ((c : Thread nD τ).loc main_arg3)) (m ((c : Thread nD τ).loc main_arg4)) := by
  refine (W10_arr m ρ c 4).trans ((region1 (V9 m ρ) c).trans ?_)
  show layerReluG (W9 m ρ c (Proc.devRef .tc main_v22)) (W9 m ρ c (Proc.devRef .tc main_v11)) (W9 m ρ c (Proc.devRef .tc main_arg3)) (W9 m ρ c (Proc.devRef .tc main_arg4)) = _
  rw [agg1, keep9_main_v11, W7_v11, keep9_main_arg3, keep9_main_arg4]
  rfl

/-! ## The second layer -/

/-- The out-degree normalisation is still what the first region found. -/
theorem io2 (c : Dev nD) : W10 m ρ c (Proc.devRef .tc main_v9) = invOf (m ((c : Thread nD τ).loc main_arg1)) := (keep10_main_v9 m ρ c).trans (W7_v9 m ρ c)

theorem scaled2 (c : Dev nD) : W11 m ρ c (Proc.devRef .tc main_v24) = scaleG (klayerRelu (padOf (m ((c : Thread nD τ).loc main_arg0))) (m ((c : Thread nD τ).loc main_arg1)) (m ((c : Thread nD τ).loc main_arg2)) (m ((c : Thread nD τ).loc main_arg3)) (m ((c : Thread nD τ).loc main_arg4))) (invOf (m ((c : Thread nD τ).loc main_arg1))) := by
  refine (W11_arr m ρ c 2).trans ((region2 (V10 m ρ) c).trans ?_)
  show scaleG (W10 m ρ c (Proc.devRef .tc main_v23)) (W10 m ρ c (Proc.devRef .tc main_v9)) = _
  rw [layer1, io2]

theorem agg2 (c : Dev nD) : W12 m ρ c (Proc.devRef .tc main_v34) = aggOf (scaleG (klayerRelu (padOf (m ((c : Thread nD τ).loc main_arg0))) (m ((c : Thread nD τ).loc main_arg1)) (m ((c : Thread nD τ).loc main_arg2)) (m ((c : Thread nD τ).loc main_arg3)) (m ((c : Thread nD τ).loc main_arg4))) (invOf (m ((c : Thread nD τ).loc main_arg1)))) (m ((c : Thread nD τ).loc main_arg1)) (m ((c : Thread nD τ).loc main_arg2)) := by
  rw [W12_v34, scaled2, keep11_8_main_arg1, keep8_main_arg1, keep11_8_main_arg2, keep8_main_arg2]

/-- The in-degree normalisation is still what the first region found. -/
theorem ii2 (c : Dev nD) : W12 m ρ c (Proc.devRef .tc main_v11) = invOf (m ((c : Thread nD τ).loc main_arg2)) :=
  ((keep12_main_v11 m ρ c).trans (keep9_main_v11 m ρ c)).trans (W7_v11 m ρ c)

theorem layer2 (c : Dev nD) : W13 m ρ c (Proc.devRef .tc main_v35) = klayerRelu (klayerRelu (padOf (m ((c : Thread nD τ).loc main_arg0))) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6)) := by
  refine (W13_arr m ρ c 4).trans ((region3 (V12 m ρ) c).trans ?_)
  show layerReluG (W12 m ρ c (Proc.devRef .tc main_v34)) (W12 m ρ c (Proc.devRef .tc main_v11)) (W12 m ρ c (Proc.devRef .tc main_arg5)) (W12 m ρ c (Proc.devRef .tc main_arg6)) = _
  rw [agg2, ii2, keep12_main_arg5, keep12_main_arg6]
  rfl

/-! ## The third layer -/

theorem io3 (c : Dev nD) : W13 m ρ c (Proc.devRef .tc main_v9) = invOf (m ((c : Thread nD τ).loc main_arg1)) := (keep13_main_v9 m ρ c).trans (io2 m ρ c)

theorem scaled3 (c : Dev nD) : W14 m ρ c (Proc.devRef .tc main_v36) = scaleG (klayerRelu (klayerRelu (padOf (m ((c : Thread nD τ).loc main_arg0))) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (invOf (m ((c : Thread nD τ).loc main_arg1))) := by
  refine (W14_arr m ρ c 2).trans ((region4 (V13 m ρ) c).trans ?_)
  show scaleG (W13 m ρ c (Proc.devRef .tc main_v35)) (W13 m ρ c (Proc.devRef .tc main_v9)) = _
  rw [layer2, io3]

theorem agg3 (c : Dev nD) : W15 m ρ c (Proc.devRef .tc main_v46) = aggOf (scaleG (klayerRelu (klayerRelu (padOf (m ((c : Thread nD τ).loc main_arg0))) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (invOf (m ((c : Thread nD τ).loc main_arg1)))) (m ((c : Thread nD τ).loc main_arg1)) (m ((c : Thread nD τ).loc main_arg2)) := by
  rw [W15_v46, scaled3, keep14_11_main_arg1, keep11_8_main_arg1, keep8_main_arg1, keep14_11_main_arg2, keep11_8_main_arg2,
    keep8_main_arg2]

theorem ii3 (c : Dev nD) : W15 m ρ c (Proc.devRef .tc main_v11) = invOf (m ((c : Thread nD τ).loc main_arg2)) := (keep15_main_v11 m ρ c).trans (ii2 m ρ c)

theorem layer3 (c : Dev nD) : W16 m ρ c (Proc.devRef .tc main_v47) = klayer (klayerRelu (klayerRelu (padOf (m ((c : Thread nD τ).loc main_arg0))) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) := by
  refine (W16_arr m ρ c 4).trans ((region5 (V15 m ρ) c).trans ?_)
  show layerG (W15 m ρ c (Proc.devRef .tc main_v46)) (W15 m ρ c (Proc.devRef .tc main_v11)) (W15 m ρ c (Proc.devRef .tc main_arg7)) (W15 m ρ c (Proc.devRef .tc main_arg8)) = _
  rw [agg3, ii3, keep15_main_arg7, keep15_main_arg8]
  rfl

/-! ## The result -/

/-- THE FOLD, READ AT THE RESULT. -/
theorem fold_result (c : Dev nD) :
    W17 m ρ c (Proc.devRef .tc main_v48)
      = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W17_v48, layer3]
  rfl

end Cert.KernelIdeal.KV

end
-- ==== Proof.RefLayer.lean ====
/-
  The reference, read at an entry: its result is the three-layer network over 50000 nodes.
-/
import proofs.«107483_j63513976373416_1_alg».proof.Proof.Gen.ReferenceIdeal.Read
import proofs.«107483_j63513976373416_1_alg».proof.Proof.Spec
import proofs.«107483_j63513976373416_1_alg».proof.Proof.LibHostGather
import proofs.«107483_j63513976373416_1_alg».proof.Proof.LibHostSegmentSum
import proofs.«107483_j63513976373416_1_alg».proof.Proof.LibIdealEntries

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.GCN

/-- The node whose row edge `e` reads, when every source word is a node. -/
def srcNode (x1 : IVec S640000 32)
    (hs : ∀ e : Fin 640000, 0 ≤ BitVec.toInt (x1 (ix1 e)) ∧ BitVec.toInt (x1 (ix1 e)) < 50000) (e : Fin 640000) : Fin 50000 :=
  ⟨(BitVec.toInt (x1 (ix1 e))).toNat, by have := hs e; omega⟩

/-- A word that is not negative is below the zero word in no signed comparison, so the wrap-around of a negative
    index leaves it alone. -/
theorem wrap_word (x y : BitVec 32) (h0 : 0 ≤ x.toInt) :
    Scalar.select (IntOp.cmpi .slt x 0#32) y x = x := by
  have hc : IntOp.cmpi .slt x 0#32 = 0#1 := by
    show BitVec.ofBool (x.slt 0#32) = 0#1
    have hf : x.slt 0#32 = false := by
      rw [BitVec.slt]
      simp only [BitVec.toInt_zero, decide_eq_false_iff_not, not_lt]
      exact h0
    rw [hf]; rfl
  rw [hc]; exact select_zero _ _

/-- A NORMALISATION VECTOR AT AN ENTRY. The degree of node `r` is the accumulator's zero word plus one `oneW` for every
    edge whose index word, read signed, is `r` (a word outside the node range lands nowhere, and no word is clamped);
    the vector holds the reciprocal square root of the degree raised to at least `oneW`. -/
theorem inv_entry (x : IVec S640000 32) (r : Fin 50000) :
    val_main_v8 (F := Ideal) x (ix1 r) = invE zeroW oneW (fun e => BitVec.toInt (x (ix1 e))) r.val := by
  rw [val_main_v8_apply, val_main_v7_apply, Ideal.hostUnary_rsqrt_def, Ideal.maximumf_def, val_main_call0_v1_apply,
    val_main_call0_v0_apply, val_main_cst_2_apply]
  unfold invE degE
  refine congrArg (fun t => Ideal.rsqrt (max oneW t)) ?_
  refine (Cert.HostInt.scatterAdd_col_apply (N := 50000) (B := 640000) (φ := .f32)
    Facts₀.scatter_S50000_S640000x1_S640000_n_0_0_1_wf (val_main_v1 (F := Ideal)) (val_main_v2 (F := Ideal) x)
    (val_main_v0 (F := Ideal)) r).trans ?_
  rw [val_main_v1_apply, val_main_cst_0_apply]
  refine congrArg (zeroW + ·) (Finset.sum_congr rfl fun e _ => ?_)
  rw [val_main_v2_apply, val_main_v0_apply, val_main_cst_apply]
  have hi : idx_main_v2 (HostInt.colEntry e) = ix1 e := funext fun a => match a with | ⟨0, _⟩ => rfl
  rw [hi]
  rfl

/-- The second normalisation vector is the same function, of the destination words. -/
theorem inv_entry' (x : IVec S640000 32) (r : Fin 50000) :
    val_main_v10 (F := Ideal) x (ix1 r) = invE zeroW oneW (fun e => BitVec.toInt (x (ix1 e))) r.val :=
  inv_entry x r

/-- The matrix product at an entry: the sum over the shared axis. -/
theorem dot_entry (y : FVec Ideal S50000x128 .f32) (W : FVec Ideal S128x128 .f32) (i : Fin 50000) (j : Fin 128) :
    Host.dotGeneral (F := Ideal) dot_S50000x128_S128x128_S50000x128_1_0_0_1_n_n none y W (ix2 i j) = ∑ k : Fin 128, y (ix2 i k) * W (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 i j) ((contrEquiv1 dot_S50000x128_S128x128_S50000x128_1_0_0_1_n_n 128 rfl rfl).symm k) = ix2 i k :=
    funext fun a => Fin.ext (by
      match a with
      | ⟨0, _⟩ => exact lhs_main_v27_0 _ _
      | ⟨1, _⟩ => exact (lhs_main_v27_1 _ _).trans hk)
  have er : dot_S50000x128_S128x128_S50000x128_1_0_0_1_n_n.rhsIdx (ix2 i j) ((contrEquiv1 dot_S50000x128_S128x128_S50000x128_1_0_0_1_n_n 128 rfl rfl).symm k) = ix2 k j :=
    funext fun a => Fin.ext (by
      match a with
      | ⟨0, _⟩ => exact (rhs_main_v27_0 _ _).trans hk
      | ⟨1, _⟩ => exact rhs_main_v27_1 _ _)
  rw [el, er]

/-- The gathered row of edge `e` is the row of the edge's source node: the word is not negative, so it is not
    wrapped, and it is below the number of nodes, so the clamp leaves it alone. -/
theorem gather_entry (g : FVec Ideal S50000x128 .f32) (x1 : IVec S640000 32)
    (hs : ∀ e : Fin 640000, 0 ≤ BitVec.toInt (x1 (ix1 e)) ∧ BitVec.toInt (x1 (ix1 e)) < 50000)
    (e : Fin 640000) (k : Fin 128) :
    Host.gather gather_S50000x128_S640000x1_S640000x128_1_0_n_n_0_1_1128 g (val_main_v19 (F := Ideal) x1) (ix2 e k) = g (ix2 (srcNode x1 hs e) k) := by
  refine (Cert.HostInt.gather_rows_apply (B := 50000) (F := 128) (N := 640000) (by decide)
    Facts₀.gather_S50000x128_S640000x1_S640000x128_1_0_n_n_0_1_1128_wf g (val_main_v19 (F := Ideal) x1) e k).trans ?_
  refine congrArg (fun s => g (ix2 s k)) (Fin.ext ?_)
  show min (BitVec.toInt (val_main_v19 (F := Ideal) x1 (HostInt.colIdx e))).toNat (50000 - 1) = (BitVec.toInt (x1 (ix1 e))).toNat
  have hi : idx_main_v19 (HostInt.colIdx e) = ix1 e := funext fun a => match a with | ⟨0, _⟩ => rfl
  rw [val_main_v19_apply, hi, val_main_v18_apply, val_main_v15_apply, val_main_v14_apply, val_main_c_apply,
    wrap_word _ _ (hs e).1]
  have := hs e
  omega

/-- The aggregation at an entry: the accumulator's zero word plus the gathered rows of the edges into node `i`. -/
theorem agg_entry (g : FVec Ideal S50000x128 .f32) (x1 x2 : IVec S640000 32)
    (hs : ∀ e : Fin 640000, 0 ≤ BitVec.toInt (x1 (ix1 e)) ∧ BitVec.toInt (x1 (ix1 e)) < 50000)
    (i : Fin 50000) (k : Fin 128) :
    Host.scatterAdd (F := Ideal) scatter_S50000x128_S640000x1_S640000x128_1_0_0_1 (val_main_v21 (F := Ideal)) (val_main_v22 (F := Ideal) x2)
        (Host.gather gather_S50000x128_S640000x1_S640000x128_1_0_n_n_0_1_1128 g (val_main_v19 (F := Ideal) x1)) (ix2 i k)
      = zeroW + ∑ e : Fin 640000,
          if BitVec.toInt (x2 (ix1 e)) = (i.val : Int) then g (ix2 (srcNode x1 hs e) k) else 0 := by
  refine (Cert.HostInt.scatterAdd_rows_apply (B := 50000) (F := 128) (N := 640000) (φ := .f32)
    Facts₀.scatter_S50000x128_S640000x1_S640000x128_1_0_0_1_wf (val_main_v21 (F := Ideal)) (val_main_v22 (F := Ideal) x2)
    (Host.gather gather_S50000x128_S640000x1_S640000x128_1_0_n_n_0_1_1128 g (val_main_v19 (F := Ideal) x1)) i k).trans ?_
  rw [val_main_v21_apply, val_main_cst_5_apply]
  refine congrArg (zeroW + ·) (Finset.sum_congr rfl fun e _ => ?_)
  have hi : idx_main_v22 (HostInt.rowIdx e) = ix1 e := funext fun a => match a with | ⟨0, _⟩ => rfl
  rw [val_main_v22_apply, hi, gather_entry g x1 hs e k]

/-- One layer of the reference as a function of the features entering it: scale the rows, gather the source rows of
    the edges, sum them into the destination rows, scale again, multiply by the weights and add the bias. -/
def refLayer (h : FVec Ideal S50000x128 .f32) (x1 x2 : IVec S640000 32) (W : FVec Ideal S128x128 .f32)
    (b : FVec Ideal S128 .f32) : FVec Ideal S50000x128 .f32 :=
  addf
    (Host.dotGeneral (F := Ideal) dot_S50000x128_S128x128_S50000x128_1_0_0_1_n_n none
      (mulf
        (Host.scatterAdd (F := Ideal) scatter_S50000x128_S640000x1_S640000x128_1_0_0_1 (val_main_v21 (F := Ideal)) (val_main_v22 (F := Ideal) x2)
          (Host.gather gather_S50000x128_S640000x1_S640000x128_1_0_n_n_0_1_1128 (mulf h (val_main_v12 (F := Ideal) x1)) (val_main_v19 (F := Ideal) x1)))
        (val_main_v25 (F := Ideal) x2))
      W)
    (val_main_v29 (F := Ideal) b)

/-- ONE LAYER AT AN ENTRY: the bias is read at the column, both normalisation vectors at their rows, the product is the
    sum over the shared axis, and the aggregated row is the zero word plus the scaled source rows of the edges into
    node `i`. -/
theorem refLayer_entry (h : FVec Ideal S50000x128 .f32) (x1 x2 : IVec S640000 32) (W : FVec Ideal S128x128 .f32)
    (b : FVec Ideal S128 .f32)
    (hs : ∀ e : Fin 640000, 0 ≤ BitVec.toInt (x1 (ix1 e)) ∧ BitVec.toInt (x1 (ix1 e)) < 50000)
    (i : Fin 50000) (j : Fin 128) :
    refLayer h x1 x2 W b (ix2 i j)
      = layerE zeroW (fun e => BitVec.toInt (x2 (ix1 e))) (srcNode x1 hs) (fun r k => h (ix2 r k))
          (fun r => invE zeroW oneW (fun e => BitVec.toInt (x1 (ix1 e))) r.val)
          (fun r => invE zeroW oneW (fun e => BitVec.toInt (x2 (ix1 e))) r.val)
          (fun k q => W (ix2 k q)) (fun q => b (ix1 q)) i j := by
  have hb : val_main_v29 (F := Ideal) b (ix2 i j) = b (ix1 j) := by
    have hi : idx_main_v28 (idx_main_v29 (ix2 i j)) = ix1 j := funext fun a => match a with | ⟨0, _⟩ => rfl
    rw [val_main_v29_apply, val_main_v28_apply, hi]
  have hio : ∀ (s : Fin 50000) (k : Fin 128), val_main_v12 (F := Ideal) x1 (ix2 s k)
      = invE zeroW oneW (fun e => BitVec.toInt (x1 (ix1 e))) s.val := fun s k => by
    have hi : idx_main_v11 (idx_main_v12 (ix2 s k)) = ix1 s := funext fun a => match a with | ⟨0, _⟩ => rfl
    rw [val_main_v12_apply, val_main_v11_apply, hi]
    exact inv_entry x1 s
  have hii : ∀ k : Fin 128, val_main_v25 (F := Ideal) x2 (ix2 i k)
      = invE zeroW oneW (fun e => BitVec.toInt (x2 (ix1 e))) i.val := fun k => by
    have hi : idx_main_v24 (idx_main_v25 (ix2 i k)) = ix1 i := funext fun a => match a with | ⟨0, _⟩ => rfl
    rw [val_main_v25_apply, val_main_v24_apply, hi]
    exact inv_entry' x2 i
  unfold refLayer layerE
  rw [addf_apply, dot_entry, hb]
  refine congrArg (· + b (ix1 j)) (Finset.sum_congr rfl fun k _ => ?_)
  rw [mulf_apply, agg_entry _ x1 x2 hs i k, hii k]
  refine congrArg (fun t => (zeroW + t) * invE zeroW oneW (fun e => BitVec.toInt (x2 (ix1 e))) i.val * W (ix2 k j))
    (Finset.sum_congr rfl fun e _ => ?_)
  rw [mulf_apply, hio]

/-- The three layers of the reference are one function of the features entering them: each recomputes the same two
    normalisation vectors from the same index words, and wraps and gathers through the same source words. The first
    layer is that function of the input features. -/
theorem layer1_eq (x0 : FVec Ideal S50000x128 .f32) (x1 x2 : IVec S640000 32)
    (x3 : FVec Ideal S128x128 .f32) (x4 : FVec Ideal S128 .f32) :
    val_main_v30 (F := Ideal) x0 x1 x2 x3 x4 = refLayer x0 x1 x2 x3 x4 := rfl

/-- The second layer is that function of the first layer's activations. -/
theorem layer2_eq (x0 : FVec Ideal S50000x128 .f32) (x1 x2 : IVec S640000 32)
    (x3 : FVec Ideal S128x128 .f32) (x4 : FVec Ideal S128 .f32) (x5 : FVec Ideal S128x128 .f32) (x6 : FVec Ideal S128 .f32) :
    val_main_v62 (F := Ideal) x0 x1 x2 x3 x4 x5 x6
      = refLayer (val_main_v31 (F := Ideal) x0 x1 x2 x3 x4) x1 x2 x5 x6 := rfl

/-- The third layer is that function of the second layer's activations. -/
theorem layer3_eq (x0 : FVec Ideal S50000x128 .f32) (x1 x2 : IVec S640000 32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) :
    val_main_v94 (F := Ideal) x0 x1 x2 x3 x4 x5 x6 x7 x8
      = refLayer (val_main_v63 (F := Ideal) x0 x1 x2 x3 x4 x5 x6) x1 x2 x7 x8 := rfl

/-- A layer's entry depends on the features entering it only through their entries. -/
theorem layerE_congr {n : Nat} (z : EReal) (dst : Fin E → Int) (s : Fin E → Fin n) {h h' : Fin n → Fin 128 → EReal}
    (hh : ∀ r k, h r k = h' r k) (io ii : Fin n → EReal) (W : Fin 128 → Fin 128 → EReal) (b : Fin 128 → EReal)
    (i : Fin n) (j : Fin 128) : layerE z dst s h io ii W b i j = layerE z dst s h' io ii W b i j := by
  rw [show h = h' from funext fun r => funext fun k => hh r k]

/-- THE REFERENCE AT AN ENTRY. -/
theorem ref_entry (x0 : FVec Ideal S50000x128 .f32) (x1 x2 : IVec S640000 32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32)
    (hs : ∀ e : Fin 640000, 0 ≤ BitVec.toInt (x1 (ix1 e)) ∧ BitVec.toInt (x1 (ix1 e)) < 50000)
    (i : Fin 50000) (j : Fin 128) :
    val_main_v94 (F := Ideal) x0 x1 x2 x3 x4 x5 x6 x7 x8 (ix2 i j)
      = net zeroW oneW (fun e => BitVec.toInt (x1 (ix1 e))) (fun e => BitVec.toInt (x2 (ix1 e))) (srcNode x1 hs)
          (fun r k => x0 (ix2 r k)) (fun k q => x3 (ix2 k q)) (fun q => x4 (ix1 q)) (fun k q => x5 (ix2 k q))
          (fun q => x6 (ix1 q)) (fun k q => x7 (ix2 k q)) (fun q => x8 (ix1 q)) i j := by
  rw [layer3_eq, refLayer_entry _ _ _ _ _ hs]
  unfold net
  refine layerE_congr _ _ _ (fun r k => ?_) _ _ _ _ _ _
  rw [val_main_v63_apply, Ideal.maximumf_def, val_main_call5_v0_apply, val_main_call5_cst_apply, layer2_eq,
    refLayer_entry _ _ _ _ _ hs]
  refine congrArg (max · zeroW) (layerE_congr _ _ _ (fun r' k' => ?_) _ _ _ _ _ _)
  rw [val_main_v31_apply, Ideal.maximumf_def, val_main_call2_v0_apply, val_main_call2_cst_apply, layer1_eq,
    refLayer_entry _ _ _ _ _ hs]
  rfl

end Cert.ReferenceIdeal.RefValue

end
-- ==== Proof.PreSrc.lean ====
/-
  What the precondition says about the edges' source words: each, read as a signed integer, is a node, 0 ≤ · < 50000.

  The precondition is a conjunction, built one `and` at a time, whose last two conjuncts are "every source word is at
  least 0" and "every source word is below 50000", each an `and` over all 640000 words of a signed comparison with a
  constant. A conjunction that is the one word has both conjuncts the one word; an `and` over an array that is the one
  word had the one word at every entry; and a signed comparison that is the one word orders the two signed readings.
-/
import proofs.«107483_j63513976373416_1_alg».proof.Pre_finite_inputs
import proofs.«107483_j63513976373416_1_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Src

open Idealize.ShloMosaic Idealize.ShloMosaic.ValueIdx Cert.Pre_finite_inputs

variable [Cert.Pre_finite_inputs.Facts]

/-- The scalar shape has exactly one index. -/
instance : Subsingleton S_.Idx := ⟨fun a b => funext fun d => d.elim0⟩

/-- The precondition's last two conjuncts, entry by entry. -/
theorem src_range (a0 : FVec Ideal S50000x128 .f32) (a1 a2 : IVec S640000 32) (a3 : FVec Ideal S128x128 .f32)
    (a4 : FVec Ideal S128 .f32) (a5 : FVec Ideal S128x128 .f32) (a6 : FVec Ideal S128 .f32) (a7 : FVec Ideal S128x128 .f32)
    (a8 : FVec Ideal S128 .f32)
    (h : Cert.Pre_finite_inputs.fn (F := Ideal) a0 a1 a2 a3 a4 a5 a6 a7 a8 = (fun _ => 1#1)) :
    ∀ e : Fin 640000, 0 ≤ BitVec.toInt (a1 (ix1 e)) ∧ BitVec.toInt (a1 (ix1 e)) < 50000 := by
  intro e
  have h0 : fn (F := Ideal) a0 a1 a2 a3 a4 a5 a6 a7 a8 ix0 = 1#1 := congrFun h ix0
  -- the whole conjunction is its tail applied to the conjunction `v` of everything before the source words' conjuncts
  obtain ⟨v, hv⟩ : ∃ v : IVec S_ 1, fn_part2 (F := Ideal) a1 v ix0 = 1#1 := ⟨_, h0⟩
  dsimp only [fn_part2] at hv
  -- peel the two outer conjunctions
  obtain ⟨h37, h40⟩ := IntOp.andi_eq_one.1 hv
  obtain ⟨-, h36⟩ := IntOp.andi_eq_one.1 h37
  -- each remaining conjunct is an `and` over all words: read it at word `e`
  have hge := Host.reduce_andi_all _ _ _ _ ix0 h36 (ix1 e)
  have hlt := Host.reduce_andi_all _ _ _ _ ix0 h40 (ix1 e)
  -- the compared constants, broadcast to every word, are the words 0 and 50000
  have hge' : (0#32 : BitVec 32).toInt ≤ (a1 (ix1 e)).toInt := IntOp.cmpi_sge.1 hge
  have hlt' : (a1 (ix1 e)).toInt < (50000#32 : BitVec 32).toInt := IntOp.cmpi_slt.1 hlt
  rw [show (0#32 : BitVec 32).toInt = 0 from by decide] at hge'
  rw [show (50000#32 : BitVec 32).toInt = 50000 from by decide] at hlt'
  exact ⟨hge', hlt'⟩

end Cert.Pre_finite_inputs.Src

end
-- ==== Proof.lean ====
/-
  A three-layer graph convolution computed over a node axis padded from 50000 to 50176 nodes, against the same network
  over the 50000 nodes, on the extended reals.

  Each layer scales the node features by the reciprocal square root of the out-degree, sums the scaled rows along the
  edges into their destination nodes, scales by the reciprocal square root of the in-degree, multiplies by a weight
  matrix and adds a bias; the first two layers end in a maximum with zero. The padded program does the scalings and the
  dense part in kernel regions over blocks of 1024 rows and the sums along the edges on the host; a change of float
  format in a region is the identity on the extended reals and its matrix product into a zero accumulator is the sum the
  reference's product is.

  The two agree because an edge reads a row of the features only at its source node: when every source word is a node,
  0 ≤ · < 50000, no edge reads a padded row, so the first 50000 rows of every layer over the padded axis are the rows of
  the layer over the unpadded one, whatever the padded rows hold and wherever the destination words point (a destination
  outside the unpadded axis lands in a padded row or nowhere, and is never read back). The sums are exact sums of
  extended reals, so their order is immaterial and finiteness of the inputs is not used.
-/
import proofs.«107483_j63513976373416_1_alg».proof.Defs
import proofs.«107483_j63513976373416_1_alg».proof.Proof.Gen.Kernel
import proofs.«107483_j63513976373416_1_alg».proof.Proof.Gen.Kernel.Frame
import proofs.«107483_j63513976373416_1_alg».proof.Proof.Gen.KernelIdeal
import proofs.«107483_j63513976373416_1_alg».proof.Proof.Gen.KernelIdeal.Frame
import proofs.«107483_j63513976373416_1_alg».proof.Proof.Gen.ReferenceIdeal
import proofs.«107483_j63513976373416_1_alg».proof.Proof.Gen.ReferenceIdeal.Run
import proofs.«107483_j63513976373416_1_alg».proof.Proof.Gen.ReferenceIdeal.Read
import proofs.«107483_j63513976373416_1_alg».proof.Proof.Gen.Pre_finite_inputs
import proofs.«107483_j63513976373416_1_alg».proof.Proof.Spec
import proofs.«107483_j63513976373416_1_alg».proof.Proof.KRun
import proofs.«107483_j63513976373416_1_alg».proof.Proof.KNet
import proofs.«107483_j63513976373416_1_alg».proof.Proof.KFold
import proofs.«107483_j63513976373416_1_alg».proof.Proof.RefLayer
import proofs.«107483_j63513976373416_1_alg».proof.Proof.PreSrc
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level program runs and leaves its arguments alone. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end, on agreeing arguments whose source words are nodes, with the network's value: the padded
    program's result is the network over 50176 nodes read in its first 50000 rows, the reference's the network over 50000
    nodes, and padding the node axis does not change those rows. -/
theorem algebraic : Cert.algebraic_KernelIdeal_ReferenceIdeal := by
  intro m ρ m' ρ' hpre hagree
  refine ⟨fun c => Cert.KernelIdeal.KV.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KV.fold_result m ρ c), (h c).2⟩) (Cert.KernelIdeal.KV.run m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v94 m' c = Cert.KernelIdeal.KV.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    have hs := Cert.Pre_finite_inputs.Src.src_range _ _ _ _ _ _ _ _ _ (hpre c)
    rw [Cert.ReferenceIdeal.Read.val_main_v94_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    funext idx
    obtain ⟨i, j, rfl⟩ : ∃ (i : Fin 50000) (j : Fin 128), idx = ix2 i j := ⟨idx 0, idx 1, eq_ix2 idx⟩
    refine (Cert.ReferenceIdeal.RefValue.ref_entry _ _ _ _ _ _ _ _ _ hs i j).trans ?_
    refine Eq.trans ?_ (Cert.KernelIdeal.KV.kernelOut_entry _ _ hs _ _ _ _ _ _ _ i j).symm
    have hnode : ∀ e : Fin 640000, (Cert.KernelIdeal.KV.srcNodeP (m ((c.tc : Thread Cert.KernelIdeal.nD Cert.KernelIdeal.τ).loc Cert.KernelIdeal.main_arg1)) hs e).val
        = (Cert.ReferenceIdeal.RefValue.srcNode (m ((c.tc : Thread Cert.KernelIdeal.nD Cert.KernelIdeal.τ).loc Cert.KernelIdeal.main_arg1)) hs e).val := fun _ => rfl
    have hfeat : ∀ (r : Fin 50000) (r' : Fin 50176), r'.val = r.val → ∀ k : Fin 128,
        Cert.KernelIdeal.KV.padOf (m ((c.tc : Thread Cert.KernelIdeal.nD Cert.KernelIdeal.τ).loc Cert.KernelIdeal.main_arg0)) (ix2 r' k) = (m ((c.tc : Thread Cert.KernelIdeal.nD Cert.KernelIdeal.τ).loc Cert.KernelIdeal.main_arg0)) (ix2 r k) := fun r r' hr k => by
      obtain rfl : r' = ⟨r.val, Nat.lt_of_lt_of_le r.isLt (by decide)⟩ := Fin.ext hr
      exact Cert.KernelIdeal.KV.padOf_entry _ r k
    exact (Cert.GCN.net_agree (n := 50000) (n' := 50176) Cert.GCN.zeroW Cert.GCN.oneW _ _ _ _ hnode _ _ hfeat _ _ _ _ _ _ i
      ⟨i.val, Nat.lt_of_lt_of_le i.isLt (by decide)⟩ rfl j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
